-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S4x128x128 : Shape := ⟨3, ![4, 128, 128]⟩
abbrev S128 : Shape := ⟨1, ![128]⟩
abbrev S4x128x64 : Shape := ⟨3, ![4, 128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S4x128x64 : S_.BroadcastsInDim S4x128x64 (![] : Fin 0 → Fin S4x128x64.rank)
  reducesTo_S4x128x64_S_d0_1_2 : S4x128x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S4x128x64 1) : IVec S_ 1 :=
  let main_c_5 : IVec S_ 1 := constantI S_ 1 1#1
  let main_v17 : IVec S_ 1 := (fun x v => Host.reduce IntOp.andi x v reducesTo_S4x128x64_S_d0_1_2 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S4x128x128 .f32) (main_arg3 : FVec F S128 .f32) (main_arg4 : FVec F S4x128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x64 .f32 := Host.absf main_arg4
  let main_cst_4 : FVec F S_ .f32 := constant S_ .f32 0x7F800000#32
  let main_v15 : FVec F S4x128x64 .f32 := broadcastInDim S4x128x64 ![] bcast_S_S4x128x64 main_cst_4
  let main_v16 : IVec S4x128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S4x128x128 : Shape := ⟨3, ![4, 128, 128]⟩
abbrev S128 : Shape := ⟨1, ![128]⟩
abbrev S4x128x64 : Shape := ⟨3, ![4, 128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x128x128 : Shape := ⟨3, ![1, 128, 128]⟩
abbrev S128x128 : Shape := ⟨2, ![128, 128]⟩
abbrev S1x64 : Shape := ⟨2, ![1, 64]⟩
abbrev S50000x64 : Shape := ⟨2, ![50000, 64]⟩
abbrev S5000x64 : Shape := ⟨2, ![5000, 64]⟩
abbrev S1x128x64 : Shape := ⟨3, ![1, 128, 64]⟩
abbrev S128x64 : Shape := ⟨2, ![128, 64]⟩
abbrev S5000 : Shape := ⟨1, ![5000]⟩
abbrev S5000x1 : Shape := ⟨2, ![5000, 1]⟩

abbrev nBuf : Space → Nat
  | .hbm => 145
  | .vmem => 24
  | .smem => 0
  | _ => 0

abbrev hbmTy0_0 (i : Nat) : BufTy := match i % 128 with
  | 0 => ⟨S50000x128, .f32⟩
  | 1 => ⟨S2x800000, .i32⟩
  | 2 => ⟨S4x128x128, .f32⟩
  | 3 => ⟨S128, .f32⟩
  | 4 => ⟨S4x128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S_, .f32⟩
  | 23 => ⟨S_, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S800000x1, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S800000x1, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S1x128, .f32⟩
  | 94 => ⟨S50000x128, .f32⟩
  | 95 => ⟨S800000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S800000x1, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S800000x1, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S1x64, .f32⟩
  | 16 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S4x128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S4x128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_19 : Ref sig .tc := ⟨.hbm, 112, rfl⟩
abbrev main_v83 : Ref sig .tc := ⟨.hbm, 113, rfl⟩
abbrev main_v84 : Ref sig .tc := ⟨.hbm, 114, rfl⟩
abbrev main_c_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_22 : Ref sig .tc := ⟨.hbm, 128, rfl⟩
abbrev main_v96 : Ref sig .tc := ⟨.hbm, 129, rfl⟩
abbrev main_v97 : Ref sig .tc := ⟨.hbm, 130, rfl⟩
abbrev main_c_23 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_24 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  shapeCasts_S5000x128_S5000x128 : S5000x128.ShapeCasts S5000x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S4x128x64_S1x128x64_0_0_0 : ∀ a, (![0, 0, 0] : Fin 3 → Nat) a + S1x128x64.size a ≤ S4x128x64.size a
  h_S1x128x64 : 0 < S1x128x64.numel
  shapeCasts_S1x128x64_S128x64 : S1x128x64.ShapeCasts S128x64
  inb_S4x128x64_S1x128x64_1_0_0 : ∀ a, (![1, 0, 0] : Fin 3 → Nat) a + S1x128x64.size a ≤ S4x128x64.size a
  inb_S4x128x64_S1x128x64_2_0_0 : ∀ a, (![2, 0, 0] : Fin 3 → Nat) a + S1x128x64.size a ≤ S4x128x64.size a
  inb_S4x128x64_S1x128x64_3_0_0 : ∀ a, (![3, 0, 0] : Fin 3 → Nat) a + S1x128x64.size a ≤ S4x128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x128.size a ≤ S4x128x128.size a
  hwx0_4 : ∀ i : grid0.Coords, EltTy.bits .f32 = 32 ∨ (Rect.block (s := S4x128x128) S4x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128x64.size a ≤ S4x128x64.size a
  hwx1_4 : ∀ i : grid1.Coords, EltTy.bits .f32 = 32 ∨ (Rect.block (s := S4x128x64) S4x128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v66) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S4x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v68) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v68) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v81) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v94) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v107) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S4x128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v108) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v109) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S4x128x128 : Shape := ⟨3, ![4, 128, 128]⟩
abbrev S128 : Shape := ⟨1, ![128]⟩
abbrev S4x128x64 : Shape := ⟨3, ![4, 128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S1x128x64 : Shape := ⟨3, ![1, 128, 64]⟩
abbrev S128x64 : Shape := ⟨2, ![128, 64]⟩
abbrev S50000x64 : Shape := ⟨2, ![50000, 64]⟩
abbrev S1x64 : Shape := ⟨2, ![1, 64]⟩
abbrev S50000x1 : Shape := ⟨2, ![50000, 1]⟩

abbrev nBuf : Space → Nat
  | .hbm => 216
  | .vmem => 0
  | .smem => 0
  | _ => 0

abbrev hbmTy0_0 (i : Nat) : BufTy := match i % 128 with
  | 0 => ⟨S50000x128, .f32⟩
  | 1 => ⟨S2x800000, .i32⟩
  | 2 => ⟨S4x128x128, .f32⟩
  | 3 => ⟨S128, .f32⟩
  | 4 => ⟨S4x128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S50000, .f32⟩
  | 23 => ⟨S_, .f32⟩
  | 24 => ⟨S50000, .f32⟩
  | 25 => ⟨S50000, .i1⟩
  | 26 => ⟨S_, .f32⟩
  | 27 => ⟨S_, .f32⟩
  | 28 => ⟨S50000, .f32⟩
  | 29 => ⟨S50000, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S800000, .f32⟩
  | 66 => ⟨S1x128x128, .f32⟩
  | 67 => ⟨S128x128, .f32⟩
  | 68 => ⟨S50000x128, .f32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S1x128x128, .f32⟩
  | 86 => ⟨S128x128, .f32⟩
  | 87 => ⟨S50000x128, .f32⟩
  | 88 => ⟨S50000x128, .f32⟩
  | 89 => ⟨S800000x1, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S1x128x128, .f32⟩
  | 106 => ⟨S128x128, .f32⟩
  | 107 => ⟨S50000x128, .f32⟩
  | 108 => ⟨S50000x128, .f32⟩
  | 109 => ⟨S800000x1, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S1x128x128, .f32⟩
  | 126 => ⟨S128x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S1x128x64, .f32⟩
  | 8 => ⟨S128x64, .f32⟩
  | 9 => ⟨S50000x64, .f32⟩
  | 10 => ⟨S800000x1, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x128, .f32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S1x128x64, .f32⟩
  | 27 => ⟨S128x64, .f32⟩
  | 28 => ⟨S50000x64, .f32⟩
  | 29 => ⟨S50000x64, .f32⟩
  | 30 => ⟨S800000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x128, .f32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S1x128x64, .f32⟩
  | 47 => ⟨S128x64, .f32⟩
  | 48 => ⟨S50000x64, .f32⟩
  | 49 => ⟨S50000x64, .f32⟩
  | 50 => ⟨S800000x1, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S1x128x64, .f32⟩
  | 67 => ⟨S128x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x64, .f32⟩
  | 80 => ⟨S50000x64, .f32⟩
  | 81 => ⟨S50000x64, .f32⟩
  | 82 => ⟨S_, .f32⟩
  | 83 => ⟨S50000, .f32⟩
  | 84 => ⟨S50000x1, .f32⟩
  | 85 => ⟨S50000x1, .f32⟩
  | 86 => ⟨S50000x64, .f32⟩
  | 87 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_v20 : Ref sig .tc := ⟨.hbm, 39, rfl⟩
abbrev main_cst_8 : Ref sig .tc := ⟨.hbm, 40, rfl⟩
abbrev main_v21 : Ref sig .tc := ⟨.hbm, 41, rfl⟩
abbrev main_v22 : Ref sig .tc := ⟨.hbm, 42, rfl⟩
abbrev main_cst_9 : Ref sig .tc := ⟨.hbm, 43, rfl⟩
abbrev main_call2_v0 : Ref sig .tc := ⟨.hbm, 44, rfl⟩
abbrev main_call2_v1 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25 : Ref sig .tc := ⟨.hbm, 49, rfl⟩
abbrev main_c_10 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_11 : Ref sig .tc := ⟨.hbm, 56, rfl⟩
abbrev main_v31 : Ref sig .tc := ⟨.hbm, 57, rfl⟩
abbrev main_v32 : Ref sig .tc := ⟨.hbm, 58, rfl⟩
abbrev main_c_12 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_13 : Ref sig .tc := ⟨.hbm, 70, rfl⟩
abbrev main_v43 : Ref sig .tc := ⟨.hbm, 71, rfl⟩
abbrev main_v44 : Ref sig .tc := ⟨.hbm, 72, rfl⟩
abbrev main_c_14 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_c_17 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_call3_cst : Ref sig .tc := ⟨.hbm, 132, rfl⟩
abbrev main_call3_v0 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_c_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_24 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_25 : Ref sig .tc := ⟨.hbm, 159, rfl⟩
abbrev main_v118 : Ref sig .tc := ⟨.hbm, 160, rfl⟩
abbrev main_v119 : Ref sig .tc := ⟨.hbm, 161, rfl⟩
abbrev main_c_26 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_27 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_28 : Ref sig .tc := ⟨.hbm, 179, rfl⟩
abbrev main_v135 : Ref sig .tc := ⟨.hbm, 180, rfl⟩
abbrev main_v136 : Ref sig .tc := ⟨.hbm, 181, rfl⟩
abbrev main_c_29 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_30 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_call4_cst : Ref sig .tc := ⟨.hbm, 201, rfl⟩
abbrev main_call4_v0 : Ref sig .tc := ⟨.hbm, 202, rfl⟩
abbrev main_call4_cst_0 : Ref sig .tc := ⟨.hbm, 203, rfl⟩
abbrev main_call4_v1 : Ref sig .tc := ⟨.hbm, 204, rfl⟩
abbrev main_call4_v2 : Ref sig .tc := ⟨.hbm, 205, rfl⟩
abbrev main_call4_v3 : Ref sig .tc := ⟨.hbm, 206, rfl⟩
abbrev main_call4_v4 : Ref sig .tc := ⟨.hbm, 207, rfl⟩
abbrev main_call4_v5 : Ref sig .tc := ⟨.hbm, 208, rfl⟩
abbrev main_call4_v6 : Ref sig .tc := ⟨.hbm, 209, rfl⟩
abbrev main_call4_cst_1 : Ref sig .tc := ⟨.hbm, 210, rfl⟩
abbrev main_call4_v7 : Ref sig .tc := ⟨.hbm, 211, rfl⟩
abbrev main_call4_v8 : Ref sig .tc := ⟨.hbm, 212, rfl⟩
abbrev main_call4_v9 : Ref sig .tc := ⟨.hbm, 213, rfl⟩
abbrev main_call4_v10 : Ref sig .tc := ⟨.hbm, 214, rfl⟩
abbrev main_v154 : Ref sig .tc := ⟨.hbm, 215, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x128x128_S1x128x128_0_0_0 : S4x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x64_S1x128x64_0_0_0 : S4x128x64.Slices ![0, 0, 0] S1x128x64
  shapeCasts_S1x128x64_S128x64 : S1x128x64.ShapeCasts S128x64
  slices_S4x128x64_S1x128x64_1_0_0 : S4x128x64.Slices ![1, 0, 0] S1x128x64
  slices_S4x128x64_S1x128x64_2_0_0 : S4x128x64.Slices ![2, 0, 0] S1x128x64
  slices_S4x128x64_S1x128x64_3_0_0 : S4x128x64.Slices ![3, 0, 0] S1x128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized unit program's run, with its result named.

  The program is six segments: three stretches of host operations, the first tiled unit, a fourth stretch, the
  second tiled unit. Every weakly fair execution terminates without a fault, and in the final state every
  buffer that outlives the regions holds the last boundary's contents: the arguments as launched, and the
  result array what the second unit's write-backs leave.
-/
import proofs.«112029_j12232066859621_2_alg».proof.Proof.Gen.KernelIdeal.Frame

set_option maxRecDepth 16384

noncomputable section

namespace Cert.KernelIdeal.RunValue

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the six segments from the launch memory: the result array ends at the last boundary's contents at
    its buffer, the six arguments as launched. -/
theorem run_value : θ_run defs (onTc (τ := τ) (main (F := F))) ⟨m, fun _ => 0, ρ⟩ (fun r => ∀ c : Dev nD,
      r.2.mem ((c.tc : Thread nD τ).loc main_v109) = W6 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v109 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LayerSpec.lean ====
/-
  The two layers of the network as functions on the extended reals, entry by entry.

  A layer takes four propagated feature arrays `h0 … h3` of shape `[N, D]`, a stack of four weight
  matrices `w : [4, D, Q]` and a bias `b`, one number per column. Entry `(p, q)` of its pre-activation is

      pre p q = ∑_c h0[p,c]·w[0,c,q] + ∑_c h1[p,c]·w[1,c,q] + ∑_c h2[p,c]·w[2,c,q] + ∑_c h3[p,c]·w[3,c,q] + b[q],

  the four products added left to right and the bias last. The first layer clamps it below at zero; the
  second takes the logarithm of the softmax along the row, `(a_q − m) − log ∑_k exp (a_k − m)` with `m` the
  row's maximum (a fold of `max` from −∞ over the row).

  Row `p` of either result depends on row `p` of the feature arrays only, so a block of rows and the
  whole array are the same function at different `N`: the statements below are for every `N`.
-/
import Idealize.ShloMosaic.PureOps.Ideal.Laws
import Idealize.ShloMosaic.Lib.ValueIdx

noncomputable section

open scoped BigOperators

namespace Cert.Layer

open Idealize.ShloMosaic Idealize.ShloMosaic.ValueIdx

variable {N D Q : Nat}

/-- One hop's contribution to entry `(p, q)`: row `p` of the features against column `q` of weight matrix `k`. -/
def hopDot (h : (⟨2, ![N, D]⟩ : Shape).Idx → EReal) (w : (⟨3, ![4, D, Q]⟩ : Shape).Idx → EReal) (k : Fin 4)
    (p : Fin N) (q : Fin Q) : EReal :=
  ∑ c : Fin D, h (ix2 p c) * w (ix3 k c q)

/-- The pre-activation at `(p, q)`: the four hops' contributions, left to right, then the bias. -/
def pre (h0 h1 h2 h3 : (⟨2, ![N, D]⟩ : Shape).Idx → EReal) (w : (⟨3, ![4, D, Q]⟩ : Shape).Idx → EReal)
    (b : Fin Q → EReal) (p : Fin N) (q : Fin Q) : EReal :=
  hopDot h0 w 0 p q + hopDot h1 w 1 p q + hopDot h2 w 2 p q + hopDot h3 w 3 p q + b q

/-- The first layer: the pre-activation clamped below at the value of the zero pattern. -/
def relu (h0 h1 h2 h3 : (⟨2, ![N, D]⟩ : Shape).Idx → EReal) (w : (⟨3, ![4, D, Q]⟩ : Shape).Idx → EReal)
    (b : Fin Q → EReal) : (⟨2, ![N, Q]⟩ : Shape).Idx → EReal :=
  fun i => max (pre h0 h1 h2 h3 w b (i 0) (i 1)) (Ideal.ofBits .f32 0x00000000#32)

/-- A row's maximum: the fold of `max` over the row from the value of the −∞ pattern. -/
def rowMax (a : Fin Q → EReal) : EReal :=
  (Finset.univ : Finset (Fin Q)).fold max (Ideal.ofBits .f32 0xFF800000#32) a

/-- The logarithm of the softmax of a row `a`, at `q`: shift by the maximum, subtract the logarithm of the sum of
    exponentials of the shifted row. -/
def logSoftmaxRow (a : Fin Q → EReal) (q : Fin Q) : EReal :=
  (a q - rowMax a) - Ideal.log (∑ k : Fin Q, Ideal.exp (a k - rowMax a))

/-- The second layer: the logarithm of the softmax of each row of the pre-activation. -/
def logSoftmax (h0 h1 h2 h3 : (⟨2, ![N, D]⟩ : Shape).Idx → EReal) (w : (⟨3, ![4, D, Q]⟩ : Shape).Idx → EReal)
    (b : Fin Q → EReal) : (⟨2, ![N, Q]⟩ : Shape).Idx → EReal :=
  fun i => logSoftmaxRow (fun q => pre h0 h1 h2 h3 w b (i 0) q) (i 1)

/-- Row `p` of the pre-activation reads row `p` of the feature arrays only: two sets of arrays (of any numbers of
    rows) that agree on one row each, with the same weights and bias, give the same pre-activation on that row. -/
theorem pre_congr {N' : Nat} (h0 h1 h2 h3 : (⟨2, ![N, D]⟩ : Shape).Idx → EReal) (h0' h1' h2' h3' : (⟨2, ![N', D]⟩ : Shape).Idx → EReal)
    (w w' : (⟨3, ![4, D, Q]⟩ : Shape).Idx → EReal) (b b' : Fin Q → EReal) (p : Fin N) (p' : Fin N')
    (e0 : ∀ c, h0 (ix2 p c) = h0' (ix2 p' c)) (e1 : ∀ c, h1 (ix2 p c) = h1' (ix2 p' c))
    (e2 : ∀ c, h2 (ix2 p c) = h2' (ix2 p' c)) (e3 : ∀ c, h3 (ix2 p c) = h3' (ix2 p' c))
    (ew : ∀ k c q, w (ix3 k c q) = w' (ix3 k c q)) (eb : ∀ q, b q = b' q) (q : Fin Q) :
    pre h0 h1 h2 h3 w b p q = pre h0' h1' h2' h3' w' b' p' q := by
  unfold pre hopDot
  simp only [e0, e1, e2, e3, ew, eb]

/-- The first layer, likewise, row by row. -/
theorem relu_congr {N' : Nat} (h0 h1 h2 h3 : (⟨2, ![N, D]⟩ : Shape).Idx → EReal) (h0' h1' h2' h3' : (⟨2, ![N', D]⟩ : Shape).Idx → EReal)
    (w w' : (⟨3, ![4, D, Q]⟩ : Shape).Idx → EReal) (b b' : Fin Q → EReal) (p : Fin N) (p' : Fin N')
    (e0 : ∀ c, h0 (ix2 p c) = h0' (ix2 p' c)) (e1 : ∀ c, h1 (ix2 p c) = h1' (ix2 p' c))
    (e2 : ∀ c, h2 (ix2 p c) = h2' (ix2 p' c)) (e3 : ∀ c, h3 (ix2 p c) = h3' (ix2 p' c))
    (ew : ∀ k c q, w (ix3 k c q) = w' (ix3 k c q)) (eb : ∀ q, b q = b' q) (q : Fin Q) :
    relu h0 h1 h2 h3 w b (ix2 p q) = relu h0' h1' h2' h3' w' b' (ix2 p' q) :=
  congrArg (max · (Ideal.ofBits .f32 0x00000000#32)) (pre_congr h0 h1 h2 h3 h0' h1' h2' h3' w w' b b' p p' e0 e1 e2 e3 ew eb q)

/-- The second layer, likewise, row by row. -/
theorem logSoftmax_congr {N' : Nat} (h0 h1 h2 h3 : (⟨2, ![N, D]⟩ : Shape).Idx → EReal) (h0' h1' h2' h3' : (⟨2, ![N', D]⟩ : Shape).Idx → EReal)
    (w w' : (⟨3, ![4, D, Q]⟩ : Shape).Idx → EReal) (b b' : Fin Q → EReal) (p : Fin N) (p' : Fin N')
    (e0 : ∀ c, h0 (ix2 p c) = h0' (ix2 p' c)) (e1 : ∀ c, h1 (ix2 p c) = h1' (ix2 p' c))
    (e2 : ∀ c, h2 (ix2 p c) = h2' (ix2 p' c)) (e3 : ∀ c, h3 (ix2 p c) = h3' (ix2 p' c))
    (ew : ∀ k c q, w (ix3 k c q) = w' (ix3 k c q)) (eb : ∀ q, b q = b' q) (q : Fin Q) :
    logSoftmax h0 h1 h2 h3 w b (ix2 p q) = logSoftmax h0' h1' h2' h3' w' b' (ix2 p' q) :=
  congrArg (logSoftmaxRow · q) (funext fun k => pre_congr h0 h1 h2 h3 h0' h1' h2' h3' w w' b b' p p' e0 e1 e2 e3 ew eb k)

/-- The fold of `max` from `z` is at least `z`, so taking the maximum with `z` once more changes nothing. -/
theorem max_rowMax (a : Fin Q → EReal) : max (Ideal.ofBits .f32 0xFF800000#32) (rowMax a) = rowMax a :=
  max_eq_right (Finset.le_fold_max _ |>.mpr (Or.inl le_rfl))

/-- A sum that starts from the value of the zero pattern is the sum. -/
theorem zero_add_sum (x : EReal) : Ideal.ofBits .f32 0x00000000#32 + x = x := by
  rw [Ideal.ofBits_zero_f32, zero_add]

end Cert.Layer

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«112029_j12232066859621_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.KernelRows.lean ====
/-
  What one grid point of each of the two tiled units writes, entry by entry.

  A point of the first unit holds a block of 5000 rows of the four propagated feature arrays, the whole
  weight stack `[4, 128, 128]` and the bias as one row `[1, 128]`; it stores, at `(p, q)`, the first layer's
  value `Cert.Layer.relu` of those blocks. A point of the second unit holds 5000 rows of its four feature
  arrays, the stack `[4, 128, 64]` and the bias row `[1, 64]`, and stores the second layer's `Cert.Layer.logSoftmax`.

  The body's accumulator starts from a splat of zero, so its first sum is `0 + ∑ …`; that is the only
  difference from the layer's formula, and `0 + x = x` on the extended reals.
-/
import proofs.«112029_j12232066859621_2_alg».proof.Proof.Gen.KernelIdeal.Frame
import proofs.«112029_j12232066859621_2_alg».proof.Proof.LayerSpec
import proofs.«112029_j12232066859621_2_alg».proof.Proof.LibRowLayer

noncomputable section

open scoped BigOperators

namespace Cert.KernelIdeal.Rows

open Cert.KernelIdeal Cert.KernelIdeal.Gen Idealize.ShloMosaic Idealize.ShloMosaic.ValueIdx

/-- The zero offsets of a whole-buffer access, as a constant function. -/
theorem zero2 : (![0, 0] : Fin 2 → ℕ) = fun _ => 0 := by funext a; fin_cases a <;> rfl

/-- Both layers' products are plain ones: rows of the left operand against columns of the right. -/
theorem plain128 : Cert.PlainDot.IsPlain dot_S5000x128_S128x128_S5000x128_1_0_0_1_n_n := ⟨rfl, rfl, rfl, rfl, rfl, rfl⟩
theorem plain64 : Cert.PlainDot.IsPlain dot_S5000x128_S128x64_S5000x64_1_0_0_1_n_n := ⟨rfl, rfl, rfl, rfl, rfl, rfl⟩

/-! ## The first unit -/

/-- Slice `k` of the weight stack, loaded as `[1, 128, 128]`, holds at `(0, c, q)` the stack's entry `(k, c, q)`. -/
theorem ld0_0 (w : Vec Ideal S4x128x128 .f32) (c q : Fin 128) : View.ld w r0_1 (ix3 (0 : Fin 1) c q) = w (ix3 (0 : Fin 4) c q) :=
  congrArg w (funext fun a => Fin.ext (by
    match a with
    | ⟨0, _⟩ => rfl
    | ⟨1, _⟩ => show 0 + 1 * c.val = c.val; omega
    | ⟨2, _⟩ => show 0 + 1 * q.val = q.val; omega))
theorem ld0_1 (w : Vec Ideal S4x128x128 .f32) (c q : Fin 128) : View.ld w r0_2 (ix3 (0 : Fin 1) c q) = w (ix3 (1 : Fin 4) c q) :=
  congrArg w (funext fun a => Fin.ext (by
    match a with
    | ⟨0, _⟩ => rfl
    | ⟨1, _⟩ => show 0 + 1 * c.val = c.val; omega
    | ⟨2, _⟩ => show 0 + 1 * q.val = q.val; omega))
theorem ld0_2 (w : Vec Ideal S4x128x128 .f32) (c q : Fin 128) : View.ld w r0_3 (ix3 (0 : Fin 1) c q) = w (ix3 (2 : Fin 4) c q) :=
  congrArg w (funext fun a => Fin.ext (by
    match a with
    | ⟨0, _⟩ => rfl
    | ⟨1, _⟩ => show 0 + 1 * c.val = c.val; omega
    | ⟨2, _⟩ => show 0 + 1 * q.val = q.val; omega))
theorem ld0_3 (w : Vec Ideal S4x128x128 .f32) (c q : Fin 128) : View.ld w r0_4 (ix3 (0 : Fin 1) c q) = w (ix3 (3 : Fin 4) c q) :=
  congrArg w (funext fun a => Fin.ext (by
    match a with
    | ⟨0, _⟩ => rfl
    | ⟨1, _⟩ => show 0 + 1 * c.val = c.val; omega
    | ⟨2, _⟩ => show 0 + 1 * q.val = q.val; omega))

/-- A row of features against a column of a loaded weight slice is the layer's hop term. -/
theorem hop0_0 (x : Vec Ideal S5000x128 .f32) (w : Vec Ideal S4x128x128 .f32) (p : Fin 5000) (q : Fin 128) :
    (∑ c : Fin 128, x (ix2 p c) * View.ld w r0_1 (ix3 (0 : Fin 1) c q)) = Cert.Layer.hopDot x w 0 p q :=
  Finset.sum_congr rfl fun c _ => congrArg (x (ix2 p c) * ·) (ld0_0 w c q)
theorem hop0_1 (x : Vec Ideal S5000x128 .f32) (w : Vec Ideal S4x128x128 .f32) (p : Fin 5000) (q : Fin 128) :
    (∑ c : Fin 128, x (ix2 p c) * View.ld w r0_2 (ix3 (0 : Fin 1) c q)) = Cert.Layer.hopDot x w 1 p q :=
  Finset.sum_congr rfl fun c _ => congrArg (x (ix2 p c) * ·) (ld0_1 w c q)
theorem hop0_2 (x : Vec Ideal S5000x128 .f32) (w : Vec Ideal S4x128x128 .f32) (p : Fin 5000) (q : Fin 128) :
    (∑ c : Fin 128, x (ix2 p c) * View.ld w r0_3 (ix3 (0 : Fin 1) c q)) = Cert.Layer.hopDot x w 2 p q :=
  Finset.sum_congr rfl fun c _ => congrArg (x (ix2 p c) * ·) (ld0_2 w c q)
theorem hop0_3 (x : Vec Ideal S5000x128 .f32) (w : Vec Ideal S4x128x128 .f32) (p : Fin 5000) (q : Fin 128) :
    (∑ c : Fin 128, x (ix2 p c) * View.ld w r0_4 (ix3 (0 : Fin 1) c q)) = Cert.Layer.hopDot x w 3 p q :=
  Finset.sum_congr rfl fun c _ => congrArg (x (ix2 p c) * ·) (ld0_3 w c q)

/-- The accumulated products of the first unit's body at `(p, q)`, over loaded weight slices. -/
theorem acc0_apply (v1 v8 v16 v24 : FVec Ideal S5000x128 .f32) (v3 v11 v19 v27 : FVec Ideal S1x128x128 .f32)
    (p : Fin 5000) (q : Fin 128) :
    k0_pay2 v1 v3 v8 v11 v16 v19 v24 v27 (ix2 p q)
      = (∑ c : Fin 128, v1 (ix2 p c) * v3 (ix3 (0 : Fin 1) c q)) + (∑ c : Fin 128, v8 (ix2 p c) * v11 (ix3 (0 : Fin 1) c q))
        + (∑ c : Fin 128, v16 (ix2 p c) * v19 (ix3 (0 : Fin 1) c q)) + (∑ c : Fin 128, v24 (ix2 p c) * v27 (ix3 (0 : Fin 1) c q)) := by
  unfold k0_pay2
  simp only [shapeCast_self]
  show (((Ideal.ofBits .f32 0x00000000#32 + _) + _) + _) + _ = _
  rw [Cert.RowLayer.blockDot _ plain128 none v1 v3 _ _ p q, Cert.RowLayer.blockDot _ plain128 none v8 v11 _ _ p q,
    Cert.RowLayer.blockDot _ plain128 none v16 v19 _ _ p q, Cert.RowLayer.blockDot _ plain128 none v24 v27 _ _ p q,
    Cert.Layer.zero_add_sum]

/-- What a point of the first unit stores, at `(p, q)`: the first layer's value of the point's blocks, the bias row
    read as a vector. -/
theorem out0_apply (x0 x1 x2 x3 : Vec Ideal S5000x128 .f32) (x4 : Vec Ideal S4x128x128 .f32) (x5 : Vec Ideal S1x128 .f32)
    (p : Fin 5000) (q : Fin 128) :
    out0_6 x0 x1 x2 x3 x4 x5 (ix2 p q)
      = Cert.Layer.relu x0 x1 x2 x3 x4 (fun k => x5 (ix2 (0 : Fin 1) k)) (ix2 p q) := by
  unfold out0_6
  rw [View.canon_unit_zero zero2]
  simp only [View.ld_unit_zero (S := S5000x128) zero2, View.ld_unit_zero (S := S1x128) zero2]
  unfold k0_pay1
  simp only [shapeCast_self]
  show max (k0_pay2 x0 (View.ld x4 r0_1) x1 (View.ld x4 r0_2) x2 (View.ld x4 r0_3) x3 (View.ld x4 r0_4) (ix2 p q)
      + broadcastTo S5000x128 x5 broadcasts_S1x128_S5000x128 (ix2 p q)) (Ideal.ofBits .f32 0x00000000#32) = _
  rw [acc0_apply, broadcastTo_1b_ab_apply, hop0_0, hop0_1, hop0_2, hop0_3]
  rfl

/-! ## The second unit -/

theorem ld1_0 (w : Vec Ideal S4x128x64 .f32) (c : Fin 128) (q : Fin 64) : View.ld w r1_1 (ix3 (0 : Fin 1) c q) = w (ix3 (0 : Fin 4) c q) :=
  congrArg w (funext fun a => Fin.ext (by
    match a with
    | ⟨0, _⟩ => rfl
    | ⟨1, _⟩ => show 0 + 1 * c.val = c.val; omega
    | ⟨2, _⟩ => show 0 + 1 * q.val = q.val; omega))
theorem ld1_1 (w : Vec Ideal S4x128x64 .f32) (c : Fin 128) (q : Fin 64) : View.ld w r1_2 (ix3 (0 : Fin 1) c q) = w (ix3 (1 : Fin 4) c q) :=
  congrArg w (funext fun a => Fin.ext (by
    match a with
    | ⟨0, _⟩ => rfl
    | ⟨1, _⟩ => show 0 + 1 * c.val = c.val; omega
    | ⟨2, _⟩ => show 0 + 1 * q.val = q.val; omega))
theorem ld1_2 (w : Vec Ideal S4x128x64 .f32) (c : Fin 128) (q : Fin 64) : View.ld w r1_3 (ix3 (0 : Fin 1) c q) = w (ix3 (2 : Fin 4) c q) :=
  congrArg w (funext fun a => Fin.ext (by
    match a with
    | ⟨0, _⟩ => rfl
    | ⟨1, _⟩ => show 0 + 1 * c.val = c.val; omega
    | ⟨2, _⟩ => show 0 + 1 * q.val = q.val; omega))
theorem ld1_3 (w : Vec Ideal S4x128x64 .f32) (c : Fin 128) (q : Fin 64) : View.ld w r1_4 (ix3 (0 : Fin 1) c q) = w (ix3 (3 : Fin 4) c q) :=
  congrArg w (funext fun a => Fin.ext (by
    match a with
    | ⟨0, _⟩ => rfl
    | ⟨1, _⟩ => show 0 + 1 * c.val = c.val; omega
    | ⟨2, _⟩ => show 0 + 1 * q.val = q.val; omega))

theorem hop1_0 (x : Vec Ideal S5000x128 .f32) (w : Vec Ideal S4x128x64 .f32) (p : Fin 5000) (q : Fin 64) :
    (∑ c : Fin 128, x (ix2 p c) * View.ld w r1_1 (ix3 (0 : Fin 1) c q)) = Cert.Layer.hopDot x w 0 p q :=
  Finset.sum_congr rfl fun c _ => congrArg (x (ix2 p c) * ·) (ld1_0 w c q)
theorem hop1_1 (x : Vec Ideal S5000x128 .f32) (w : Vec Ideal S4x128x64 .f32) (p : Fin 5000) (q : Fin 64) :
    (∑ c : Fin 128, x (ix2 p c) * View.ld w r1_2 (ix3 (0 : Fin 1) c q)) = Cert.Layer.hopDot x w 1 p q :=
  Finset.sum_congr rfl fun c _ => congrArg (x (ix2 p c) * ·) (ld1_1 w c q)
theorem hop1_2 (x : Vec Ideal S5000x128 .f32) (w : Vec Ideal S4x128x64 .f32) (p : Fin 5000) (q : Fin 64) :
    (∑ c : Fin 128, x (ix2 p c) * View.ld w r1_3 (ix3 (0 : Fin 1) c q)) = Cert.Layer.hopDot x w 2 p q :=
  Finset.sum_congr rfl fun c _ => congrArg (x (ix2 p c) * ·) (ld1_2 w c q)
theorem hop1_3 (x : Vec Ideal S5000x128 .f32) (w : Vec Ideal S4x128x64 .f32) (p : Fin 5000) (q : Fin 64) :
    (∑ c : Fin 128, x (ix2 p c) * View.ld w r1_4 (ix3 (0 : Fin 1) c q)) = Cert.Layer.hopDot x w 3 p q :=
  Finset.sum_congr rfl fun c _ => congrArg (x (ix2 p c) * ·) (ld1_3 w c q)

/-- The accumulated products of the second unit's body at `(p, q)`, over loaded weight slices. -/
theorem acc1_apply (v1 v9 v17 v25 : FVec Ideal S5000x128 .f32) (v4 v12 v20 v28 : FVec Ideal S1x128x64 .f32)
    (p : Fin 5000) (q : Fin 64) :
    k1_pay2 v1 v4 v9 v12 v17 v20 v25 v28 (ix2 p q)
      = (∑ c : Fin 128, v1 (ix2 p c) * v4 (ix3 (0 : Fin 1) c q)) + (∑ c : Fin 128, v9 (ix2 p c) * v12 (ix3 (0 : Fin 1) c q))
        + (∑ c : Fin 128, v17 (ix2 p c) * v20 (ix3 (0 : Fin 1) c q)) + (∑ c : Fin 128, v25 (ix2 p c) * v28 (ix3 (0 : Fin 1) c q)) := by
  unfold k1_pay2
  simp only [shapeCast_self]
  show (((Ideal.ofBits .f32 0x00000000#32 + _) + _) + _) + _ = _
  rw [Cert.RowLayer.blockDot _ plain64 none v1 v4 _ _ p q, Cert.RowLayer.blockDot _ plain64 none v9 v12 _ _ p q,
    Cert.RowLayer.blockDot _ plain64 none v17 v20 _ _ p q, Cert.RowLayer.blockDot _ plain64 none v25 v28 _ _ p q,
    Cert.Layer.zero_add_sum]

/-- What a point of the second unit stores, at `(p, q)`: the second layer's value of the point's blocks. -/
theorem out1_apply (x0 x1 x2 x3 : Vec Ideal S5000x128 .f32) (x4 : Vec Ideal S4x128x64 .f32) (x5 : Vec Ideal S1x64 .f32)
    (p : Fin 5000) (q : Fin 64) :
    out1_6 x0 x1 x2 x3 x4 x5 (ix2 p q)
      = Cert.Layer.logSoftmax x0 x1 x2 x3 x4 (fun k => x5 (ix2 (0 : Fin 1) k)) (ix2 p q) := by
  unfold out1_6
  rw [View.canon_unit_zero zero2]
  simp only [View.ld_unit_zero (S := S5000x128) zero2, View.ld_unit_zero (S := S1x64) zero2]
  unfold k1_pay1
  simp only [shapeCast_self]
  refine (Cert.RowLayer.logSoftmax_block_apply
    (addf (k1_pay2 x0 (View.ld x4 r1_1) x1 (View.ld x4 r1_2) x2 (View.ld x4 r1_3) x3 (View.ld x4 r1_4))
      (broadcastTo S5000x64 x5 broadcasts_S1x64_S5000x64)) _ _ _ _ _ _ _ _ p q).trans ?_
  have ha : ∀ k : Fin 64,
      addf (k1_pay2 x0 (View.ld x4 r1_1) x1 (View.ld x4 r1_2) x2 (View.ld x4 r1_3) x3 (View.ld x4 r1_4))
        (broadcastTo S5000x64 x5 broadcasts_S1x64_S5000x64) (ix2 p k)
        = Cert.Layer.pre x0 x1 x2 x3 x4 (fun k => x5 (ix2 (0 : Fin 1) k)) p k := fun k => by
    show k1_pay2 x0 (View.ld x4 r1_1) x1 (View.ld x4 r1_2) x2 (View.ld x4 r1_3) x3 (View.ld x4 r1_4) (ix2 p k)
      + broadcastTo S5000x64 x5 broadcasts_S1x64_S5000x64 (ix2 p k) = _
    rw [acc1_apply, broadcastTo_1b_ab_apply, hop1_0, hop1_1, hop1_2, hop1_3]
    rfl
  simp only [ha]
  rfl

end Cert.KernelIdeal.Rows

end
-- ==== Proof.KernelBlocks.lean ====
/-
  From the points' blocks to the whole output array of each tiled unit.

  Each unit runs over ten grid points; point `t` reads rows `5000 t … 5000 t + 4999` of its four feature
  arrays, the whole weight stack and the whole bias row, and writes back rows `5000 t …` of the output.
  A layer's value on a row depends on that row of the feature arrays only (`Cert.Layer.relu_congr`,
  `logSoftmax_congr`), so what point `t` writes is block `t` of the layer applied to the whole arrays; the ten
  blocks cover the output array, which therefore ends holding the layer's value — whatever the arrays are
  that the region finds (`V`).
-/
import proofs.«112029_j12232066859621_2_alg».proof.Proof.Gen.KernelIdeal.Frame
import proofs.«112029_j12232066859621_2_alg».proof.Proof.LayerSpec
import proofs.«112029_j12232066859621_2_alg».proof.Proof.KernelRows
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-! ## The first unit -/

section Unit0

/-- Over the grid's ten points: the four feature windows and the output window are at block row `t`, column block 0;
    the weight stack and the bias row are one block each. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array row that row `p` of point `t`'s block is: `5000 t + p`. -/
def row0 (t : Fin cfg0.N) (p : Fin 5000) : Fin 50000 :=
  ⟨t.val * 5000 + p.val, by have ht : t.val < 10 := lt_of_lt_of_eq t.isLt N_0; have := p.isLt; omega⟩

variable (V : (c : Dev nD) → (b : Ref sig .tc) → Buf (Elt Ideal) ((c : Thread nD τ).loc b))

/-- The layer's value of the arrays the region finds: what the output array ends holding. -/
def G0 (c : Dev nD) : S50000x128.Idx → EReal :=
  Cert.Layer.relu (V c main_arg0) (V c main_v40) (V c main_v53) (V c main_v66) (V c main_arg2)
    (fun k => V c main_v67 (ix2 (0 : Fin 1) k))

/-- Row `p` of a feature window's block at point `t` is row `5000 t + p` of its array. -/
theorem feat0_0 (c : Dev nD) (t : Fin cfg0.N) (p : Fin 5000) (k : Fin 128) :
    iblk0 V c 0 t (ix2 p k) = V c main_arg0 (ix2 (row0 t p) k) := by
  obtain ⟨e0, e1, -⟩ := idx0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega
theorem feat0_1 (c : Dev nD) (t : Fin cfg0.N) (p : Fin 5000) (k : Fin 128) :
    iblk0 V c 1 t (ix2 p k) = V c main_v40 (ix2 (row0 t p) k) := by
  obtain ⟨-, -, e0, e1, -⟩ := idx0 t
  show V c main_v40 (((cfg0.win 1).blk t).view.emb (ix2 p k)) = _
  refine congrArg (V c main_v40) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega
theorem feat0_2 (c : Dev nD) (t : Fin cfg0.N) (p : Fin 5000) (k : Fin 128) :
    iblk0 V c 2 t (ix2 p k) = V c main_v53 (ix2 (row0 t p) k) := by
  obtain ⟨-, -, -, -, e0, e1, -⟩ := idx0 t
  show V c main_v53 (((cfg0.win 2).blk t).view.emb (ix2 p k)) = _
  refine congrArg (V c main_v53) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 128 + 1 * k.val = k.val; rw [e1]; omega
theorem feat0_3 (c : Dev nD) (t : Fin cfg0.N) (p : Fin 5000) (k : Fin 128) :
    iblk0 V c 3 t (ix2 p k) = V c main_v66 (ix2 (row0 t p) k) := by
  obtain ⟨-, -, -, -, -, -, e0, e1, -⟩ := idx0 t
  show V c main_v66 (((cfg0.win 3).blk t).view.emb (ix2 p k)) = _
  refine congrArg (V c main_v66) (funext fun a => Fin.ext ?_)
  match a with
  | ⟨0, _⟩ => show win0_3.index t (0 : Fin 2) * 5000 + 1 * p.val = t.val * 5000 + p.val; rw [e0]; omega
  | ⟨1, _⟩ => show win0_3.index t (1 : Fin 2) * 128 + 1 * k.val = k.val; rw [e1]; omega

/-- The weight window's one block is the whole stack. -/
theorem wts0 (c : Dev nD) (t : Fin cfg0.N) (k : Fin 4) (d : Fin 128) (q : Fin 128) :
    iblk0 V c 4 t (ix3 k d q) = V c main_arg2 (ix3 k d q) := by
  obtain ⟨-, -, -, -, -, -, -, -, e0, e1, e2, -⟩ := idx0 t
  show V c main_arg2 (((cfg0.win 4).blk t).view.emb (ix3 k d q)) = _
  refine congrArg (V c main_arg2) (funext fun a => Fin.ext ?_)
  match a with
  | ⟨0, _⟩ => show win0_4.index t (0 : Fin 3) * 4 + 1 * k.val = k.val; rw [e0]; omega
  | ⟨1, _⟩ => show win0_4.index t (1 : Fin 3) * 128 + 1 * d.val = d.val; rw [e1]; omega
  | ⟨2, _⟩ => show win0_4.index t (2 : Fin 3) * 128 + 1 * q.val = q.val; rw [e2]; omega

/-- The bias window's one block is the whole row. -/
theorem bias0 (c : Dev nD) (t : Fin cfg0.N) (q : Fin 128) :
    iblk0 V c 5 t (ix2 (0 : Fin 1) q) = V c main_v67 (ix2 (0 : Fin 1) q) := by
  obtain ⟨-, -, -, -, -, -, -, -, -, -, -, e0, e1, -⟩ := idx0 t
  show V c main_v67 (((cfg0.win 5).blk t).view.emb (ix2 (0 : Fin 1) q)) = _
  refine congrArg (V c main_v67) (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- What point `t` writes back is block `t` of the layer's value of the whole arrays: the layer works row by row, and
    the point's blocks hold rows `5000 t …` of the feature arrays, the whole weight stack and the whole bias. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  funext j
  obtain ⟨p, q, rfl⟩ : ∃ (p : Fin 5000) (q : Fin 128), j = ix2 p q := ⟨j 0, j 1, eq_ix2 j⟩
  have hemb : ((cfg0.win 6).blk t).view.emb (ix2 p q) = ix2 (row0 t p) q := by
    obtain ⟨-, -, -, -, -, -, -, -, -, -, -, -, -, e0, e1⟩ := idx0 t
    funext a; apply Fin.ext
    match a with
    | ⟨0, _⟩ => show win0_6.index t (0 : Fin 2) * 5000 + 1 * p.val = t.val * 5000 + p.val; rw [e0]; omega
    | ⟨1, _⟩ => show win0_6.index t (1 : Fin 2) * 128 + 1 * q.val = q.val; rw [e1]; omega
  show out0_6 (iblk0 V c 0 t) (iblk0 V c 1 t) (iblk0 V c 2 t) (iblk0 V c 3 t) (iblk0 V c 4 t) (iblk0 V c 5 t) (ix2 p q)
    = G0 V c (((cfg0.win 6).blk t).view.emb (ix2 p q))
  rw [hemb]
  refine (Cert.KernelIdeal.Rows.out0_apply (iblk0 V c 0 t) (iblk0 V c 1 t) (iblk0 V c 2 t) (iblk0 V c 3 t) (iblk0 V c 4 t) (iblk0 V c 5 t) p q).trans ?_
  exact Cert.Layer.relu_congr _ _ _ _ _ _ _ _ _ _ _ _ p (row0 t p) (feat0_0 V c t p) (feat0_1 V c t p) (feat0_2 V c t p)
    (feat0_3 V c t p) (wts0 V c t) (bias0 V c t) q

/-- An index of the output array is in point `t`'s block iff its row is among the block's 5000. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v68).slice (win0_6.rect t)).set ↔ _
  rw [View.set_slice_whole, Rect.mem_set_unit]
  exact Iff.rfl

/-- Every row of the output array is in some point's block: row `r` in that of point `r / 5000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; rw [hN]; omega⟩
  obtain ⟨-, -, -, -, -, -, -, -, -, -, -, -, -, e0, e1⟩ := idx0 t
  have ht : t.val = (i 0).val / 5000 := rfl
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- The output array after the region: the layer's value of the arrays the region found. -/
theorem final0 (c : Dev nD) : (dat0 V c).arrAt 6 cfg0.N = G0 V c :=
  (dat0 V c).arrAt_eq_of_cover 6 (G0 V c) (fun t _ => flushed0_eq V c t) cover0

end Unit0

/-! ## The second unit -/

section Unit1

/-- Over the grid's ten points: the four feature windows and the output window are at block row `t`, column block 0;
    the weight stack and the bias row are one block each. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 3) = 0 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The array row that row `p` of point `t`'s block is: `5000 t + p`. -/
def row1 (t : Fin cfg1.N) (p : Fin 5000) : Fin 50000 :=
  ⟨t.val * 5000 + p.val, by have ht : t.val < 10 := lt_of_lt_of_eq t.isLt N_1; have := p.isLt; omega⟩

variable (V : (c : Dev nD) → (b : Ref sig .tc) → Buf (Elt Ideal) ((c : Thread nD τ).loc b))

/-- The layer's value of the arrays the region finds: what the output array ends holding. -/
def G1 (c : Dev nD) : S50000x64.Idx → EReal :=
  Cert.Layer.logSoftmax (V c main_v68) (V c main_v81) (V c main_v94) (V c main_v107) (V c main_arg4)
    (fun k => V c main_v108 (ix2 (0 : Fin 1) k))

/-- Row `p` of a feature window's block at point `t` is row `5000 t + p` of its array. -/
theorem feat1_0 (c : Dev nD) (t : Fin cfg1.N) (p : Fin 5000) (k : Fin 128) :
    iblk1 V c 0 t (ix2 p k) = V c main_v68 (ix2 (row1 t p) k) := by
  obtain ⟨e0, e1, -⟩ := idx1 t
  show V c main_v68 (((cfg1.win 0).blk t).view.emb (ix2 p k)) = _
  refine congrArg (V c main_v68) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega
theorem feat1_1 (c : Dev nD) (t : Fin cfg1.N) (p : Fin 5000) (k : Fin 128) :
    iblk1 V c 1 t (ix2 p k) = V c main_v81 (ix2 (row1 t p) k) := by
  obtain ⟨-, -, e0, e1, -⟩ := idx1 t
  show V c main_v81 (((cfg1.win 1).blk t).view.emb (ix2 p k)) = _
  refine congrArg (V c main_v81) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega
theorem feat1_2 (c : Dev nD) (t : Fin cfg1.N) (p : Fin 5000) (k : Fin 128) :
    iblk1 V c 2 t (ix2 p k) = V c main_v94 (ix2 (row1 t p) k) := by
  obtain ⟨-, -, -, -, e0, e1, -⟩ := idx1 t
  show V c main_v94 (((cfg1.win 2).blk t).view.emb (ix2 p k)) = _
  refine congrArg (V c main_v94) (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 128 + 1 * k.val = k.val; rw [e1]; omega
theorem feat1_3 (c : Dev nD) (t : Fin cfg1.N) (p : Fin 5000) (k : Fin 128) :
    iblk1 V c 3 t (ix2 p k) = V c main_v107 (ix2 (row1 t p) k) := by
  obtain ⟨-, -, -, -, -, -, e0, e1, -⟩ := idx1 t
  show V c main_v107 (((cfg1.win 3).blk t).view.emb (ix2 p k)) = _
  refine congrArg (V c main_v107) (funext fun a => Fin.ext ?_)
  match a with
  | ⟨0, _⟩ => show win1_3.index t (0 : Fin 2) * 5000 + 1 * p.val = t.val * 5000 + p.val; rw [e0]; omega
  | ⟨1, _⟩ => show win1_3.index t (1 : Fin 2) * 128 + 1 * k.val = k.val; rw [e1]; omega

/-- The weight window's one block is the whole stack. -/
theorem wts1 (c : Dev nD) (t : Fin cfg1.N) (k : Fin 4) (d : Fin 128) (q : Fin 64) :
    iblk1 V c 4 t (ix3 k d q) = V c main_arg4 (ix3 k d q) := by
  obtain ⟨-, -, -, -, -, -, -, -, e0, e1, e2, -⟩ := idx1 t
  show V c main_arg4 (((cfg1.win 4).blk t).view.emb (ix3 k d q)) = _
  refine congrArg (V c main_arg4) (funext fun a => Fin.ext ?_)
  match a with
  | ⟨0, _⟩ => show win1_4.index t (0 : Fin 3) * 4 + 1 * k.val = k.val; rw [e0]; omega
  | ⟨1, _⟩ => show win1_4.index t (1 : Fin 3) * 128 + 1 * d.val = d.val; rw [e1]; omega
  | ⟨2, _⟩ => show win1_4.index t (2 : Fin 3) * 64 + 1 * q.val = q.val; rw [e2]; omega

/-- The bias window's one block is the whole row. -/
theorem bias1 (c : Dev nD) (t : Fin cfg1.N) (q : Fin 64) :
    iblk1 V c 5 t (ix2 (0 : Fin 1) q) = V c main_v108 (ix2 (0 : Fin 1) q) := by
  obtain ⟨-, -, -, -, -, -, -, -, -, -, -, e0, e1, -⟩ := idx1 t
  show V c main_v108 (((cfg1.win 5).blk t).view.emb (ix2 (0 : Fin 1) q)) = _
  refine congrArg (V c main_v108) (funext fun a => Fin.ext ?_)
  match a with
  | ⟨0, _⟩ => show win1_5.index t (0 : Fin 2) * 1 + 1 * 0 = 0; rw [e0]
  | ⟨1, _⟩ => show win1_5.index t (1 : Fin 2) * 64 + 1 * q.val = q.val; rw [e1]; omega

/-- What point `t` writes back is block `t` of the layer's value of the whole arrays: the layer works row by row, and
    the point's blocks hold rows `5000 t …` of the feature arrays, the whole weight stack and the whole bias. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  funext j
  obtain ⟨p, q, rfl⟩ : ∃ (p : Fin 5000) (q : Fin 64), j = ix2 p q := ⟨j 0, j 1, eq_ix2 j⟩
  have hemb : ((cfg1.win 6).blk t).view.emb (ix2 p q) = ix2 (row1 t p) q := by
    obtain ⟨-, -, -, -, -, -, -, -, -, -, -, -, -, e0, e1⟩ := idx1 t
    funext a; apply Fin.ext
    match a with
    | ⟨0, _⟩ => show win1_6.index t (0 : Fin 2) * 5000 + 1 * p.val = t.val * 5000 + p.val; rw [e0]; omega
    | ⟨1, _⟩ => show win1_6.index t (1 : Fin 2) * 64 + 1 * q.val = q.val; rw [e1]; omega
  show out1_6 (iblk1 V c 0 t) (iblk1 V c 1 t) (iblk1 V c 2 t) (iblk1 V c 3 t) (iblk1 V c 4 t) (iblk1 V c 5 t) (ix2 p q)
    = G1 V c (((cfg1.win 6).blk t).view.emb (ix2 p q))
  rw [hemb]
  refine (Cert.KernelIdeal.Rows.out1_apply (iblk1 V c 0 t) (iblk1 V c 1 t) (iblk1 V c 2 t) (iblk1 V c 3 t) (iblk1 V c 4 t) (iblk1 V c 5 t) p q).trans ?_
  exact Cert.Layer.logSoftmax_congr _ _ _ _ _ _ _ _ _ _ _ _ p (row1 t p) (feat1_0 V c t p) (feat1_1 V c t p) (feat1_2 V c t p)
    (feat1_3 V c t p) (wts1 V c t) (bias1 V c t) q

/-- An index of the output array is in point `t`'s block iff its row is among the block's 5000. -/
theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v109).slice (win1_6.rect t)).set ↔ _
  rw [View.set_slice_whole, Rect.mem_set_unit]
  exact Iff.rfl

/-- Every row of the output array is in some point's block: row `r` in that of point `r / 5000`. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; rw [hN]; omega⟩
  obtain ⟨-, -, -, -, -, -, -, -, -, -, -, -, -, e0, e1⟩ := idx1 t
  have ht : t.val = (i 0).val / 5000 := rfl
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 64 ≤ (i 1).val ∧ (i 1).val < win1_6.index t (1 : Fin 2) * 64 + 64; rw [e1]; omega

/-- The output array after the region: the layer's value of the arrays the region found. -/
theorem final1 (c : Dev nD) : (dat1 V c).arrAt 6 cfg1.N = G1 V c :=
  (dat1 V c).arrAt_eq_of_cover 6 (G1 V c) (fun t _ => flushed1_eq V c t) cover1

end Unit1

end Cert.KernelIdeal.Blocks

end
-- ==== Proof.KernelHost.lean ====
/-
  What the host operations of the idealized unit program leave in the buffers the two tiled units read.

  Before the first unit the host computes, from the edge list, the two index vectors and the edge weights, and
  from the features three propagation hops (each a gather of rows, a scaling by the edge weights and a
  scatter-add); between the units it propagates the first unit's output three more times. These are the same
  operations, in the same order, as the reference program's, so each buffer holds the reference's value of the
  same name — an equality of terms, by unfolding both. The bias vectors reach the units viewed as one-row
  matrices.
-/
import proofs.«112029_j12232066859621_2_alg».proof.Proof.Gen.KernelIdeal.Frame
import proofs.«112029_j12232066859621_2_alg».proof.Proof.RefRead
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first unit -/

set_option maxHeartbeats 4000000 in
/-- The edges' source index vector. -/
theorem W3_v1 (c : Dev nD) : W3 m ρ c (Proc.devRef .tc main_v1)
    = Cert.ReferenceIdeal.Read.val_main_v1 (F := F) (m ((c : Thread nD τ).loc main_arg1)) := by
  show StableHlo.after hostOps0_2 (StableHlo.after hostOps0_1 (StableHlo.after hostOps0 (W0 m ρ c))) (Proc.devRef .tc main_v1) = _
  after_results_simp
  rfl

set_option maxHeartbeats 4000000 in
/-- The edges' target index vector. -/
theorem W3_v3 (c : Dev nD) : W3 m ρ c (Proc.devRef .tc main_v3)
    = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
/-- The edge weights: the product of the two endpoints' inverse square-root degrees. -/
theorem W3_v27 (c : Dev nD) : W3 m ρ c (Proc.devRef .tc main_v27)
    = Cert.ReferenceIdeal.Read.val_main_v38 (F := F) (m ((c : Thread nD τ).loc main_arg1)) := by
  show StableHlo.after hostOps0_2 (StableHlo.after hostOps0_1 (StableHlo.after hostOps0 (W0 m ρ c))) (Proc.devRef .tc main_v27) = _
  after_results_simp
  rfl

set_option maxHeartbeats 4000000 in
/-- One propagation hop of the features. -/
theorem W3_v40 (c : Dev nD) : W3 m ρ c (Proc.devRef .tc main_v40)
    = Cert.ReferenceIdeal.Read.val_main_v54 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v40) = _
  after_results_simp
  rfl

set_option maxHeartbeats 4000000 in
/-- Two hops. -/
theorem W3_v53 (c : Dev nD) : W3 m ρ c (Proc.devRef .tc main_v53)
    = Cert.ReferenceIdeal.Read.val_main_v71 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v53) = _
  after_results_simp
  rfl

set_option maxHeartbeats 4000000 in
/-- Three hops. -/
theorem W3_v66 (c : Dev nD) : W3 m ρ c (Proc.devRef .tc main_v66)
    = Cert.ReferenceIdeal.Read.val_main_v88 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v66) = _
  after_results_simp
  rfl

set_option maxHeartbeats 4000000 in
/-- The first bias as a one-row matrix. -/
theorem W3_v67 (c : Dev nD) : W3 m ρ c (Proc.devRef .tc main_v67)
    = fun i => shapeCast S1x128 (m ((c : Thread nD τ).loc main_arg3)) shapeCasts_S128_S1x128 i := by
  show StableHlo.after hostOps0_2 (StableHlo.after hostOps0_1 (StableHlo.after hostOps0 (W0 m ρ c))) (Proc.devRef .tc main_v67) = _
  after_results_simp
  rfl

set_option maxHeartbeats 4000000 in
/-- The features are untouched. -/
theorem W3_arg0 (c : Dev nD) : W3 m ρ c (Proc.devRef .tc main_arg0)
    = (m ((c : Thread nD τ).loc main_arg0)) := by
  show StableHlo.after hostOps0_2 (StableHlo.after hostOps0_1 (StableHlo.after hostOps0 (W0 m ρ c))) (Proc.devRef .tc main_arg0) = _
  after_results_simp

set_option maxHeartbeats 4000000 in
/-- The first weight stack is untouched. -/
theorem W3_arg2 (c : Dev nD) : W3 m ρ c (Proc.devRef .tc main_arg2)
    = (m ((c : Thread nD τ).loc main_arg2)) := by
  show StableHlo.after hostOps0_2 (StableHlo.after hostOps0_1 (StableHlo.after hostOps0 (W0 m ρ c))) (Proc.devRef .tc main_arg2) = _
  after_results_simp

set_option maxHeartbeats 4000000 in
/-- The second weight stack is untouched. -/
theorem W3_arg4 (c : Dev nD) : W3 m ρ c (Proc.devRef .tc main_arg4)
    = (m ((c : Thread nD τ).loc main_arg4)) := by
  show StableHlo.after hostOps0_2 (StableHlo.after hostOps0_1 (StableHlo.after hostOps0 (W0 m ρ c))) (Proc.devRef .tc main_arg4) = _
  after_results_simp

set_option maxHeartbeats 4000000 in
/-- The second bias is untouched. -/
theorem W3_arg5 (c : Dev nD) : W3 m ρ c (Proc.devRef .tc main_arg5)
    = (m ((c : Thread nD τ).loc main_arg5)) := by
  show StableHlo.after hostOps0_2 (StableHlo.after hostOps0_1 (StableHlo.after hostOps0 (W0 m ρ c))) (Proc.devRef .tc main_arg5) = _
  after_results_simp

/-! ## Between the units -/

set_option maxHeartbeats 4000000 in
/-- One propagation hop of the first unit's output, when that output is the reference's first layer and the index vectors and edge weights are still the reference's. -/
theorem W5_v81 (c : Dev nD) (x0 : (⟨S50000x128, .f32⟩ : BufTy).Contents (Elt F)) (x1 : (⟨S2x800000, .i32⟩ : BufTy).Contents (Elt F))
    (x2 : (⟨S4x128x128, .f32⟩ : BufTy).Contents (Elt F)) (x3 : (⟨S128, .f32⟩ : BufTy).Contents (Elt F))
    (h68 : W4 m ρ c (Proc.devRef .tc main_v68) = Cert.ReferenceIdeal.Read.val_main_v96 (F := F) x0 x1 x2 x3)
    (h27 : W4 m ρ c (Proc.devRef .tc main_v27) = Cert.ReferenceIdeal.Read.val_main_v38 (F := F) x1)
    (h1 : W4 m ρ c (Proc.devRef .tc main_v1) = Cert.ReferenceIdeal.Read.val_main_v1 (F := F) x1)
    (h3 : W4 m ρ c (Proc.devRef .tc main_v3) = Cert.ReferenceIdeal.Read.val_main_v3 (F := F) x1) :
    W5 m ρ c (Proc.devRef .tc main_v81) = Cert.ReferenceIdeal.Read.val_main_v112 (F := F) x0 x1 x2 x3 := by
  show StableHlo.after hostOps1 (W4 m ρ c) (Proc.devRef .tc main_v81) = _
  after_results_simp
  rw [h68, h27, h1, h3]
  rfl

set_option maxHeartbeats 4000000 in
/-- Two hops, likewise. -/
theorem W5_v94 (c : Dev nD) (x0 : (⟨S50000x128, .f32⟩ : BufTy).Contents (Elt F)) (x1 : (⟨S2x800000, .i32⟩ : BufTy).Contents (Elt F))
    (x2 : (⟨S4x128x128, .f32⟩ : BufTy).Contents (Elt F)) (x3 : (⟨S128, .f32⟩ : BufTy).Contents (Elt F))
    (h68 : W4 m ρ c (Proc.devRef .tc main_v68) = Cert.ReferenceIdeal.Read.val_main_v96 (F := F) x0 x1 x2 x3)
    (h27 : W4 m ρ c (Proc.devRef .tc main_v27) = Cert.ReferenceIdeal.Read.val_main_v38 (F := F) x1)
    (h1 : W4 m ρ c (Proc.devRef .tc main_v1) = Cert.ReferenceIdeal.Read.val_main_v1 (F := F) x1)
    (h3 : W4 m ρ c (Proc.devRef .tc main_v3) = Cert.ReferenceIdeal.Read.val_main_v3 (F := F) x1) :
    W5 m ρ c (Proc.devRef .tc main_v94) = Cert.ReferenceIdeal.Read.val_main_v129 (F := F) x0 x1 x2 x3 := by
  show StableHlo.after hostOps1 (W4 m ρ c) (Proc.devRef .tc main_v94) = _
  after_results_simp
  rw [h68, h27, h1, h3]
  rfl

set_option maxHeartbeats 4000000 in
/-- Three hops, likewise. -/
theorem W5_v107 (c : Dev nD) (x0 : (⟨S50000x128, .f32⟩ : BufTy).Contents (Elt F)) (x1 : (⟨S2x800000, .i32⟩ : BufTy).Contents (Elt F))
    (x2 : (⟨S4x128x128, .f32⟩ : BufTy).Contents (Elt F)) (x3 : (⟨S128, .f32⟩ : BufTy).Contents (Elt F))
    (h68 : W4 m ρ c (Proc.devRef .tc main_v68) = Cert.ReferenceIdeal.Read.val_main_v96 (F := F) x0 x1 x2 x3)
    (h27 : W4 m ρ c (Proc.devRef .tc main_v27) = Cert.ReferenceIdeal.Read.val_main_v38 (F := F) x1)
    (h1 : W4 m ρ c (Proc.devRef .tc main_v1) = Cert.ReferenceIdeal.Read.val_main_v1 (F := F) x1)
    (h3 : W4 m ρ c (Proc.devRef .tc main_v3) = Cert.ReferenceIdeal.Read.val_main_v3 (F := F) x1) :
    W5 m ρ c (Proc.devRef .tc main_v107) = Cert.ReferenceIdeal.Read.val_main_v146 (F := F) x0 x1 x2 x3 := by
  show StableHlo.after hostOps1 (W4 m ρ c) (Proc.devRef .tc main_v107) = _
  after_results_simp
  rw [h68, h27, h1, h3]
  rfl

set_option maxHeartbeats 4000000 in
/-- The first unit's output is untouched by the stretch between the units. -/
theorem W5_v68 (c : Dev nD) : W5 m ρ c (Proc.devRef .tc main_v68) = W4 m ρ c (Proc.devRef .tc main_v68) := by
  show StableHlo.after hostOps1 (W4 m ρ c) (Proc.devRef .tc main_v68) = _
  after_results_simp
set_option maxHeartbeats 4000000 in
/-- So is the second weight stack. -/
theorem W5_arg4 (c : Dev nD) : W5 m ρ c (Proc.devRef .tc main_arg4) = W4 m ρ c (Proc.devRef .tc main_arg4) := by
  show StableHlo.after hostOps1 (W4 m ρ c) (Proc.devRef .tc main_arg4) = _
  after_results_simp
set_option maxHeartbeats 4000000 in
/-- The second bias as a one-row matrix. -/
theorem W5_v108 (c : Dev nD) : W5 m ρ c (Proc.devRef .tc main_v108)
    = fun i => shapeCast S1x64 (W4 m ρ c (Proc.devRef .tc main_arg5)) shapeCasts_S64_S1x64 i := by
  show StableHlo.after hostOps1 (W4 m ρ c) (Proc.devRef .tc main_v108) = _
  after_results_simp
  rfl

end Cert.KernelIdeal.HostValue

end
-- ==== Proof.RefLayers.lean ====
/-
  The two layers of the reference program, read entry by entry.

  The reference computes each layer as four matrix products (a propagated feature array against one slice of the
  weight stack, the slice cut out and viewed as a matrix), added left to right, plus the bias spread along the rows;
  the first layer then takes the maximum with zero, the second the logarithm of the softmax along each row (row
  maximum subtracted, then the logarithm of the row sum of exponentials subtracted). Entry `(p, q)` of each of
  these arrays is computed here from the operands' entries: a product's entry is the sum over the contracted
  index, a slice viewed as a matrix reads the stack at `(k, c, q)` (the position `c·Q + q` in the slice splits
  back into `c` and `q`), and a spread bias or row statistic reads its source at the column or the row. The results
  are the layer functions of the specification applied to the propagated feature arrays, which stay opaque.
-/
import proofs.«112029_j12232066859621_2_alg».proof.Proof.RefRead
import proofs.«112029_j12232066859621_2_alg».proof.Proof.LayerSpec
import proofs.«112029_j12232066859621_2_alg».proof.Proof.LibRowLayer

noncomputable section

open scoped BigOperators

namespace Cert.ReferenceIdeal.Layers

open Cert.ReferenceIdeal Cert.ReferenceIdeal.Read Idealize.ShloMosaic Idealize.ShloMosaic.ValueIdx

/-! ## The first layer -/

/-- Slice 0 of the weight stack viewed as a `[128, 128]` matrix reads the stack at `(0, c, q)`. -/
theorem w_v40 (x2 : (⟨S4x128x128, .f32⟩ : BufTy).Contents (Elt Ideal)) (c : Fin 128) (q : Fin 128) :
    val_main_v40 (F := Ideal) x2 (ix2 c q) = x2 (ix3 (0 : Fin 4) c q) :=
  (val_main_v40_apply x2 (ix2 c q)).trans ((val_main_v39_apply x2 _).trans (congrArg x2
    (funext fun a => Fin.ext (by
      have hc := c.isLt
      have hq := q.isLt
      match a with
      | ⟨0, _⟩ => rfl
      | ⟨1, _⟩ => show (c.val * 128 + q.val) / 128 % 128 = c.val; omega
      | ⟨2, _⟩ => show (c.val * 128 + q.val) % 128 = q.val; omega))))

/-- Entry `(p, q)` of the product with slice 0: the sum over the contracted index. -/
theorem dot_v41 (x0 : (⟨S50000x128, .f32⟩ : BufTy).Contents (Elt Ideal)) (x2 : (⟨S4x128x128, .f32⟩ : BufTy).Contents (Elt Ideal)) (p : Fin 50000) (q : Fin 128) :
    val_main_v41 (F := Ideal) x0 x2 (ix2 p q) = Cert.Layer.hopDot x0 x2 (0 : Fin 4) p q := by
  unfold Cert.Layer.hopDot
  refine (val_main_v41_apply x0 x2 (ix2 p q)).trans (Finset.sum_congr rfl fun c _ => ?_)
  have el : lidx_main_v41 (ix2 p q) c = ix2 p c := by
    funext a
    match a with
    | ⟨0, _⟩ => rfl
    | ⟨1, _⟩ => rfl
  have er : ridx_main_v41 (ix2 p q) c = ix2 c q := by
    funext a
    match a with
    | ⟨0, _⟩ => rfl
    | ⟨1, _⟩ => rfl
  rw [el, er, w_v40]

/-- Slice 1 of the weight stack viewed as a `[128, 128]` matrix reads the stack at `(1, c, q)`. -/
theorem w_v56 (x2 : (⟨S4x128x128, .f32⟩ : BufTy).Contents (Elt Ideal)) (c : Fin 128) (q : Fin 128) :
    val_main_v56 (F := Ideal) x2 (ix2 c q) = x2 (ix3 (1 : Fin 4) c q) :=
  (val_main_v56_apply x2 (ix2 c q)).trans ((val_main_v55_apply x2 _).trans (congrArg x2
    (funext fun a => Fin.ext (by
      have hc := c.isLt
      have hq := q.isLt
      match a with
      | ⟨0, _⟩ => rfl
      | ⟨1, _⟩ => show (c.val * 128 + q.val) / 128 % 128 = c.val; omega
      | ⟨2, _⟩ => show (c.val * 128 + q.val) % 128 = q.val; omega))))

/-- Entry `(p, q)` of the product with slice 1: the sum over the contracted index. -/
theorem dot_v57 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (p : Fin 50000) (q : Fin 128) :
    val_main_v57 (F := Ideal) x0 x1 x2 (ix2 p q) = Cert.Layer.hopDot (val_main_v54 (F := Ideal) x0 x1) x2 (1 : Fin 4) p q := by
  unfold Cert.Layer.hopDot
  refine (val_main_v57_apply x0 x1 x2 (ix2 p q)).trans (Finset.sum_congr rfl fun c _ => ?_)
  have el : lidx_main_v57 (ix2 p q) c = ix2 p c := by
    funext a
    match a with
    | ⟨0, _⟩ => rfl
    | ⟨1, _⟩ => rfl
  have er : ridx_main_v57 (ix2 p q) c = ix2 c q := by
    funext a
    match a with
    | ⟨0, _⟩ => rfl
    | ⟨1, _⟩ => rfl
  rw [el, er, w_v56]

/-- Slice 2 of the weight stack viewed as a `[128, 128]` matrix reads the stack at `(2, c, q)`. -/
theorem w_v73 (x2 : (⟨S4x128x128, .f32⟩ : BufTy).Contents (Elt Ideal)) (c : Fin 128) (q : Fin 128) :
    val_main_v73 (F := Ideal) x2 (ix2 c q) = x2 (ix3 (2 : Fin 4) c q) :=
  (val_main_v73_apply x2 (ix2 c q)).trans ((val_main_v72_apply x2 _).trans (congrArg x2
    (funext fun a => Fin.ext (by
      have hc := c.isLt
      have hq := q.isLt
      match a with
      | ⟨0, _⟩ => rfl
      | ⟨1, _⟩ => show (c.val * 128 + q.val) / 128 % 128 = c.val; omega
      | ⟨2, _⟩ => show (c.val * 128 + q.val) % 128 = q.val; omega))))

/-- Entry `(p, q)` of the product with slice 2: the sum over the contracted index. -/
theorem dot_v74 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (p : Fin 50000) (q : Fin 128) :
    val_main_v74 (F := Ideal) x0 x1 x2 (ix2 p q) = Cert.Layer.hopDot (val_main_v71 (F := Ideal) x0 x1) x2 (2 : Fin 4) p q := by
  unfold Cert.Layer.hopDot
  refine (val_main_v74_apply x0 x1 x2 (ix2 p q)).trans (Finset.sum_congr rfl fun c _ => ?_)
  have el : lidx_main_v74 (ix2 p q) c = ix2 p c := by
    funext a
    match a with
    | ⟨0, _⟩ => rfl
    | ⟨1, _⟩ => rfl
  have er : ridx_main_v74 (ix2 p q) c = ix2 c q := by
    funext a
    match a with
    | ⟨0, _⟩ => rfl
    | ⟨1, _⟩ => rfl
  rw [el, er, w_v73]

/-- Slice 3 of the weight stack viewed as a `[128, 128]` matrix reads the stack at `(3, c, q)`. -/
theorem w_v90 (x2 : (⟨S4x128x128, .f32⟩ : BufTy).Contents (Elt Ideal)) (c : Fin 128) (q : Fin 128) :
    val_main_v90 (F := Ideal) x2 (ix2 c q) = x2 (ix3 (3 : Fin 4) c q) :=
  (val_main_v90_apply x2 (ix2 c q)).trans ((val_main_v89_apply x2 _).trans (congrArg x2
    (funext fun a => Fin.ext (by
      have hc := c.isLt
      have hq := q.isLt
      match a with
      | ⟨0, _⟩ => rfl
      | ⟨1, _⟩ => show (c.val * 128 + q.val) / 128 % 128 = c.val; omega
      | ⟨2, _⟩ => show (c.val * 128 + q.val) % 128 = q.val; omega))))

/-- Entry `(p, q)` of the product with slice 3: the sum over the contracted index. -/
theorem dot_v91 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (p : Fin 50000) (q : Fin 128) :
    val_main_v91 (F := Ideal) x0 x1 x2 (ix2 p q) = Cert.Layer.hopDot (val_main_v88 (F := Ideal) x0 x1) x2 (3 : Fin 4) p q := by
  unfold Cert.Layer.hopDot
  refine (val_main_v91_apply x0 x1 x2 (ix2 p q)).trans (Finset.sum_congr rfl fun c _ => ?_)
  have el : lidx_main_v91 (ix2 p q) c = ix2 p c := by
    funext a
    match a with
    | ⟨0, _⟩ => rfl
    | ⟨1, _⟩ => rfl
  have er : ridx_main_v91 (ix2 p q) c = ix2 c q := by
    funext a
    match a with
    | ⟨0, _⟩ => rfl
    | ⟨1, _⟩ => rfl
  rw [el, er, w_v90]

/-- The bias spread along the rows reads, at `(p, q)`, its entry `q`. -/
theorem bias_v94 (x3 : (⟨S128, .f32⟩ : BufTy).Contents (Elt Ideal)) (p : Fin 50000) (q : Fin 128) :
    val_main_v94 (F := Ideal) x3 (ix2 p q) = x3 (ix1 q) :=
  (val_main_v94_apply x3 (ix2 p q)).trans ((val_main_v93_apply x3 _).trans (congrArg x3
    (funext fun a => by
      match a with
      | ⟨0, _⟩ => rfl)))

/-- Entry `(p, q)` of the first layer's sum of the four products and the bias is the specification's pre-activation. -/
theorem pre_v95 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (x3 : (⟨S128, .f32⟩ : BufTy).Contents (Elt Ideal)) (p : Fin 50000) (q : Fin 128) :
    val_main_v95 (F := Ideal) x0 x1 x2 x3 (ix2 p q)
      = Cert.Layer.pre x0 (val_main_v54 (F := Ideal) x0 x1) (val_main_v71 (F := Ideal) x0 x1) (val_main_v88 (F := Ideal) x0 x1) x2 (fun k => x3 (ix1 k)) p q := by
  unfold Cert.Layer.pre
  show val_main_v41 (F := Ideal) x0 x2 (ix2 p q) + val_main_v57 (F := Ideal) x0 x1 x2 (ix2 p q) + val_main_v74 (F := Ideal) x0 x1 x2 (ix2 p q)
      + val_main_v91 (F := Ideal) x0 x1 x2 (ix2 p q) + val_main_v94 (F := Ideal) x3 (ix2 p q) = _
  rw [dot_v41, dot_v57, dot_v74, dot_v91, bias_v94]

theorem layer1 (x0 : (⟨S50000x128, .f32⟩ : BufTy).Contents (Elt Ideal)) (x1 : (⟨S2x800000, .i32⟩ : BufTy).Contents (Elt Ideal))
    (x2 : (⟨S4x128x128, .f32⟩ : BufTy).Contents (Elt Ideal)) (x3 : (⟨S128, .f32⟩ : BufTy).Contents (Elt Ideal)) :
    val_main_v96 (F := Ideal) x0 x1 x2 x3
      = Cert.Layer.relu x0 (val_main_v54 (F := Ideal) x0 x1) (val_main_v71 (F := Ideal) x0 x1) (val_main_v88 (F := Ideal) x0 x1) x2
          (fun k => x3 (ix1 k)) := by
  funext i
  obtain ⟨p, q, rfl⟩ : ∃ (p : Fin 50000) (q : Fin 128), i = ix2 p q := ⟨i 0, i 1, eq_ix2 i⟩
  have hz : val_main_call3_v0 (F := Ideal) (ix2 p q) = Ideal.ofBits .f32 0x00000000#32 :=
    (val_main_call3_v0_apply (F := Ideal) (ix2 p q)).trans (val_main_call3_cst_apply (F := Ideal) _)
  show max (val_main_v95 (F := Ideal) x0 x1 x2 x3 (ix2 p q)) (val_main_call3_v0 (F := Ideal) (ix2 p q))
      = max (Cert.Layer.pre x0 (val_main_v54 (F := Ideal) x0 x1) (val_main_v71 (F := Ideal) x0 x1) (val_main_v88 (F := Ideal) x0 x1) x2 (fun k => x3 (ix1 k)) p q) (Ideal.ofBits .f32 0x00000000#32)
  rw [pre_v95, hz]

/-! ## The second layer -/

/-- Slice 0 of the weight stack viewed as a `[128, 64]` matrix reads the stack at `(0, c, q)`. -/
theorem w_v98 (x4 : (⟨S4x128x64, .f32⟩ : BufTy).Contents (Elt Ideal)) (c : Fin 128) (q : Fin 64) :
    val_main_v98 (F := Ideal) x4 (ix2 c q) = x4 (ix3 (0 : Fin 4) c q) :=
  (val_main_v98_apply x4 (ix2 c q)).trans ((val_main_v97_apply x4 _).trans (congrArg x4
    (funext fun a => Fin.ext (by
      have hc := c.isLt
      have hq := q.isLt
      match a with
      | ⟨0, _⟩ => rfl
      | ⟨1, _⟩ => show (c.val * 64 + q.val) / 64 % 128 = c.val; omega
      | ⟨2, _⟩ => show (c.val * 64 + q.val) % 64 = q.val; omega))))

/-- Entry `(p, q)` of the product with slice 0: the sum over the contracted index. -/
theorem dot_v99 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (x3 : (⟨S128, .f32⟩ : BufTy).Contents (Elt Ideal)) (x4 : (⟨S4x128x64, .f32⟩ : BufTy).Contents (Elt Ideal)) (p : Fin 50000) (q : Fin 64) :
    val_main_v99 (F := Ideal) x0 x1 x2 x3 x4 (ix2 p q) = Cert.Layer.hopDot (val_main_v96 (F := Ideal) x0 x1 x2 x3) x4 (0 : Fin 4) p q := by
  unfold Cert.Layer.hopDot
  refine (val_main_v99_apply x0 x1 x2 x3 x4 (ix2 p q)).trans (Finset.sum_congr rfl fun c _ => ?_)
  have el : lidx_main_v99 (ix2 p q) c = ix2 p c := by
    funext a
    match a with
    | ⟨0, _⟩ => rfl
    | ⟨1, _⟩ => rfl
  have er : ridx_main_v99 (ix2 p q) c = ix2 c q := by
    funext a
    match a with
    | ⟨0, _⟩ => rfl
    | ⟨1, _⟩ => rfl
  rw [el, er, w_v98]

/-- Slice 1 of the weight stack viewed as a `[128, 64]` matrix reads the stack at `(1, c, q)`. -/
theorem w_v114 (x4 : (⟨S4x128x64, .f32⟩ : BufTy).Contents (Elt Ideal)) (c : Fin 128) (q : Fin 64) :
    val_main_v114 (F := Ideal) x4 (ix2 c q) = x4 (ix3 (1 : Fin 4) c q) :=
  (val_main_v114_apply x4 (ix2 c q)).trans ((val_main_v113_apply x4 _).trans (congrArg x4
    (funext fun a => Fin.ext (by
      have hc := c.isLt
      have hq := q.isLt
      match a with
      | ⟨0, _⟩ => rfl
      | ⟨1, _⟩ => show (c.val * 64 + q.val) / 64 % 128 = c.val; omega
      | ⟨2, _⟩ => show (c.val * 64 + q.val) % 64 = q.val; omega))))

/-- Entry `(p, q)` of the product with slice 1: the sum over the contracted index. -/
theorem dot_v115 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (x3 : (⟨S128, .f32⟩ : BufTy).Contents (Elt Ideal)) (x4 : (⟨S4x128x64, .f32⟩ : BufTy).Contents (Elt Ideal)) (p : Fin 50000) (q : Fin 64) :
    val_main_v115 (F := Ideal) x0 x1 x2 x3 x4 (ix2 p q) = Cert.Layer.hopDot (val_main_v112 (F := Ideal) x0 x1 x2 x3) x4 (1 : Fin 4) p q := by
  unfold Cert.Layer.hopDot
  refine (val_main_v115_apply x0 x1 x2 x3 x4 (ix2 p q)).trans (Finset.sum_congr rfl fun c _ => ?_)
  have el : lidx_main_v115 (ix2 p q) c = ix2 p c := by
    funext a
    match a with
    | ⟨0, _⟩ => rfl
    | ⟨1, _⟩ => rfl
  have er : ridx_main_v115 (ix2 p q) c = ix2 c q := by
    funext a
    match a with
    | ⟨0, _⟩ => rfl
    | ⟨1, _⟩ => rfl
  rw [el, er, w_v114]

/-- Slice 2 of the weight stack viewed as a `[128, 64]` matrix reads the stack at `(2, c, q)`. -/
theorem w_v131 (x4 : (⟨S4x128x64, .f32⟩ : BufTy).Contents (Elt Ideal)) (c : Fin 128) (q : Fin 64) :
    val_main_v131 (F := Ideal) x4 (ix2 c q) = x4 (ix3 (2 : Fin 4) c q) :=
  (val_main_v131_apply x4 (ix2 c q)).trans ((val_main_v130_apply x4 _).trans (congrArg x4
    (funext fun a => Fin.ext (by
      have hc := c.isLt
      have hq := q.isLt
      match a with
      | ⟨0, _⟩ => rfl
      | ⟨1, _⟩ => show (c.val * 64 + q.val) / 64 % 128 = c.val; omega
      | ⟨2, _⟩ => show (c.val * 64 + q.val) % 64 = q.val; omega))))

/-- Entry `(p, q)` of the product with slice 2: the sum over the contracted index. -/
theorem dot_v132 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (x3 : (⟨S128, .f32⟩ : BufTy).Contents (Elt Ideal)) (x4 : (⟨S4x128x64, .f32⟩ : BufTy).Contents (Elt Ideal)) (p : Fin 50000) (q : Fin 64) :
    val_main_v132 (F := Ideal) x0 x1 x2 x3 x4 (ix2 p q) = Cert.Layer.hopDot (val_main_v129 (F := Ideal) x0 x1 x2 x3) x4 (2 : Fin 4) p q := by
  unfold Cert.Layer.hopDot
  refine (val_main_v132_apply x0 x1 x2 x3 x4 (ix2 p q)).trans (Finset.sum_congr rfl fun c _ => ?_)
  have el : lidx_main_v132 (ix2 p q) c = ix2 p c := by
    funext a
    match a with
    | ⟨0, _⟩ => rfl
    | ⟨1, _⟩ => rfl
  have er : ridx_main_v132 (ix2 p q) c = ix2 c q := by
    funext a
    match a with
    | ⟨0, _⟩ => rfl
    | ⟨1, _⟩ => rfl
  rw [el, er, w_v131]

/-- Slice 3 of the weight stack viewed as a `[128, 64]` matrix reads the stack at `(3, c, q)`. -/
theorem w_v148 (x4 : (⟨S4x128x64, .f32⟩ : BufTy).Contents (Elt Ideal)) (c : Fin 128) (q : Fin 64) :
    val_main_v148 (F := Ideal) x4 (ix2 c q) = x4 (ix3 (3 : Fin 4) c q) :=
  (val_main_v148_apply x4 (ix2 c q)).trans ((val_main_v147_apply x4 _).trans (congrArg x4
    (funext fun a => Fin.ext (by
      have hc := c.isLt
      have hq := q.isLt
      match a with
      | ⟨0, _⟩ => rfl
      | ⟨1, _⟩ => show (c.val * 64 + q.val) / 64 % 128 = c.val; omega
      | ⟨2, _⟩ => show (c.val * 64 + q.val) % 64 = q.val; omega))))

/-- Entry `(p, q)` of the product with slice 3: the sum over the contracted index. -/
theorem dot_v149 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (x3 : (⟨S128, .f32⟩ : BufTy).Contents (Elt Ideal)) (x4 : (⟨S4x128x64, .f32⟩ : BufTy).Contents (Elt Ideal)) (p : Fin 50000) (q : Fin 64) :
    val_main_v149 (F := Ideal) x0 x1 x2 x3 x4 (ix2 p q) = Cert.Layer.hopDot (val_main_v146 (F := Ideal) x0 x1 x2 x3) x4 (3 : Fin 4) p q := by
  unfold Cert.Layer.hopDot
  refine (val_main_v149_apply x0 x1 x2 x3 x4 (ix2 p q)).trans (Finset.sum_congr rfl fun c _ => ?_)
  have el : lidx_main_v149 (ix2 p q) c = ix2 p c := by
    funext a
    match a with
    | ⟨0, _⟩ => rfl
    | ⟨1, _⟩ => rfl
  have er : ridx_main_v149 (ix2 p q) c = ix2 c q := by
    funext a
    match a with
    | ⟨0, _⟩ => rfl
    | ⟨1, _⟩ => rfl
  rw [el, er, w_v148]

/-- The bias spread along the rows reads, at `(p, q)`, its entry `q`. -/
theorem bias_v152 (x5 : (⟨S64, .f32⟩ : BufTy).Contents (Elt Ideal)) (p : Fin 50000) (q : Fin 64) :
    val_main_v152 (F := Ideal) x5 (ix2 p q) = x5 (ix1 q) :=
  (val_main_v152_apply x5 (ix2 p q)).trans ((val_main_v151_apply x5 _).trans (congrArg x5
    (funext fun a => by
      match a with
      | ⟨0, _⟩ => rfl)))

/-- Entry `(p, q)` of the second layer's sum of the four products and the bias is the specification's pre-activation. -/
theorem pre_v153 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (x3 : (⟨S128, .f32⟩ : BufTy).Contents (Elt Ideal)) (x4 : (⟨S4x128x64, .f32⟩ : BufTy).Contents (Elt Ideal)) (x5 : (⟨S64, .f32⟩ : BufTy).Contents (Elt Ideal)) (p : Fin 50000) (q : Fin 64) :
    val_main_v153 (F := Ideal) x0 x1 x2 x3 x4 x5 (ix2 p q)
      = Cert.Layer.pre (val_main_v96 (F := Ideal) x0 x1 x2 x3) (val_main_v112 (F := Ideal) x0 x1 x2 x3) (val_main_v129 (F := Ideal) x0 x1 x2 x3) (val_main_v146 (F := Ideal) x0 x1 x2 x3) x4 (fun k => x5 (ix1 k)) p q := by
  unfold Cert.Layer.pre
  show val_main_v99 (F := Ideal) x0 x1 x2 x3 x4 (ix2 p q) + val_main_v115 (F := Ideal) x0 x1 x2 x3 x4 (ix2 p q) + val_main_v132 (F := Ideal) x0 x1 x2 x3 x4 (ix2 p q)
      + val_main_v149 (F := Ideal) x0 x1 x2 x3 x4 (ix2 p q) + val_main_v152 (F := Ideal) x5 (ix2 p q) = _
  rw [dot_v99, dot_v115, dot_v132, dot_v149, bias_v152]

/-- The maximum along the rows, at row `p`: the fold of `max` from −∞ over row `p` of the pre-activation. -/
theorem rowMax_call4_v0 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (x3 : (⟨S128, .f32⟩ : BufTy).Contents (Elt Ideal)) (x4 : (⟨S4x128x64, .f32⟩ : BufTy).Contents (Elt Ideal)) (x5 : (⟨S64, .f32⟩ : BufTy).Contents (Elt Ideal)) (p : Fin 50000) :
    val_main_call4_v0 (F := Ideal) x0 x1 x2 x3 x4 x5 (ix1 p)
      = Cert.Layer.rowMax (fun j : Fin 64 => val_main_v153 (F := Ideal) x0 x1 x2 x3 x4 x5 (ix2 p j)) := by
  have hinit : val_main_call4_cst (F := Ideal) (Shape.Idx.first Gen.h_S_) = Ideal.ofBits .f32 0xFF800000#32 :=
    val_main_call4_cst_apply (F := Ideal) _
  unfold Cert.Layer.rowMax
  refine (Cert.RowLayer.hostRowMax_apply (val_main_v153 (F := Ideal) x0 x1 x2 x3 x4 x5) (val_main_call4_cst (F := Ideal))
    Gen.reducesTo_S50000x64_S50000_d1 (by decide) Gen.h_S_ p).trans ?_
  rw [hinit]

/-- The row maximum spread back along the rows: at `(p, k)` it is the fold of `max` over row `p` of the
    pre-activation (the maximum with −∞ taken once more changes nothing). -/
theorem rowMax_call4_v4 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (x3 : (⟨S128, .f32⟩ : BufTy).Contents (Elt Ideal)) (x4 : (⟨S4x128x64, .f32⟩ : BufTy).Contents (Elt Ideal)) (x5 : (⟨S64, .f32⟩ : BufTy).Contents (Elt Ideal)) (p : Fin 50000) (k : Fin 64) :
    val_main_call4_v4 (F := Ideal) x0 x1 x2 x3 x4 x5 (ix2 p k)
      = Cert.Layer.rowMax (fun j : Fin 64 => val_main_v153 (F := Ideal) x0 x1 x2 x3 x4 x5 (ix2 p j)) := by
  have e : idx_main_call4_v3 (idx_main_call4_v4 (ix2 p k)) = ix1 p := by
    funext a
    match a with
    | ⟨0, _⟩ => rfl
  have h1 : val_main_call4_v1 (F := Ideal) (ix1 p) = Ideal.ofBits .f32 0xFF800000#32 :=
    (val_main_call4_v1_apply (F := Ideal) (ix1 p)).trans (val_main_call4_cst_0_apply (F := Ideal) _)
  refine (val_main_call4_v4_apply x0 x1 x2 x3 x4 x5 (ix2 p k)).trans ((val_main_call4_v3_apply x0 x1 x2 x3 x4 x5 _).trans ?_)
  rw [e]
  refine (val_main_call4_v2_apply x0 x1 x2 x3 x4 x5 (ix1 p)).trans ?_
  rw [Ideal.maximumf_def, h1, rowMax_call4_v0, Cert.Layer.max_rowMax]

/-- The logarithm of the row sum of exponentials spread back along the rows, at `(p, q)`. -/
theorem logSum_call4_v10 (x0 : (⟨S50000x128, .f32⟩ : BufTy).Contents (Elt Ideal)) (x1 : (⟨S2x800000, .i32⟩ : BufTy).Contents (Elt Ideal)) (x2 : (⟨S4x128x128, .f32⟩ : BufTy).Contents (Elt Ideal)) (x3 : (⟨S128, .f32⟩ : BufTy).Contents (Elt Ideal)) (x4 : (⟨S4x128x64, .f32⟩ : BufTy).Contents (Elt Ideal)) (x5 : (⟨S64, .f32⟩ : BufTy).Contents (Elt Ideal)) (p : Fin 50000) (q : Fin 64) :
    val_main_call4_v10 (F := Ideal) x0 x1 x2 x3 x4 x5 (ix2 p q)
      = Ideal.log (∑ k : Fin 64, Ideal.exp (val_main_v153 (F := Ideal) x0 x1 x2 x3 x4 x5 (ix2 p k)
          - Cert.Layer.rowMax (fun j : Fin 64 => val_main_v153 (F := Ideal) x0 x1 x2 x3 x4 x5 (ix2 p j)))) := by
  have e : idx_main_call4_v8 (idx_main_call4_v10 (ix2 p q)) = ix1 p := by
    funext a
    match a with
    | ⟨0, _⟩ => rfl
  have ek : ∀ k : Fin 64, idx_main_call4_v7 (ix1 p) k = ix2 p k := fun k => by
    funext a
    match a with
    | ⟨0, _⟩ => rfl
    | ⟨1, _⟩ => rfl
  have hinit : val_main_call4_cst_1 (F := Ideal) (Shape.Idx.first Gen.h_S_) = Ideal.ofBits .f32 0x00000000#32 :=
    val_main_call4_cst_1_apply (F := Ideal) _
  have hexp : ∀ k : Fin 64, val_main_call4_v6 (F := Ideal) x0 x1 x2 x3 x4 x5 (ix2 p k)
      = Ideal.exp (val_main_v153 (F := Ideal) x0 x1 x2 x3 x4 x5 (ix2 p k)
          - Cert.Layer.rowMax (fun j : Fin 64 => val_main_v153 (F := Ideal) x0 x1 x2 x3 x4 x5 (ix2 p j))) := fun k => by
    refine (val_main_call4_v6_apply x0 x1 x2 x3 x4 x5 (ix2 p k)).trans ?_
    rw [Ideal.hostUnary_exp_def, val_main_call4_v5_apply, Ideal.subf_def, rowMax_call4_v4]
  refine (val_main_call4_v10_apply x0 x1 x2 x3 x4 x5 (ix2 p q)).trans ?_
  refine (val_main_call4_v9_apply x0 x1 x2 x3 x4 x5 _).trans ?_
  rw [Ideal.hostUnary_log_def]
  refine congrArg Ideal.log ((val_main_call4_v8_apply x0 x1 x2 x3 x4 x5 _).trans ?_)
  rw [e]
  refine (val_main_call4_v7_apply x0 x1 x2 x3 x4 x5 (ix1 p)).trans ?_
  rw [hinit, Cert.Layer.zero_add_sum]
  refine Finset.sum_congr rfl fun k _ => ?_
  rw [ek k]
  exact hexp k

theorem layer2 (x0 : (⟨S50000x128, .f32⟩ : BufTy).Contents (Elt Ideal)) (x1 : (⟨S2x800000, .i32⟩ : BufTy).Contents (Elt Ideal))
    (x2 : (⟨S4x128x128, .f32⟩ : BufTy).Contents (Elt Ideal)) (x3 : (⟨S128, .f32⟩ : BufTy).Contents (Elt Ideal))
    (x4 : (⟨S4x128x64, .f32⟩ : BufTy).Contents (Elt Ideal)) (x5 : (⟨S64, .f32⟩ : BufTy).Contents (Elt Ideal)) :
    val_main_v154 (F := Ideal) x0 x1 x2 x3 x4 x5
      = Cert.Layer.logSoftmax (val_main_v96 (F := Ideal) x0 x1 x2 x3) (val_main_v112 (F := Ideal) x0 x1 x2 x3) (val_main_v129 (F := Ideal) x0 x1 x2 x3) (val_main_v146 (F := Ideal) x0 x1 x2 x3) x4
          (fun k => x5 (ix1 k)) := by
  funext i
  obtain ⟨p, q, rfl⟩ : ∃ (p : Fin 50000) (q : Fin 64), i = ix2 p q := ⟨i 0, i 1, eq_ix2 i⟩
  have hrow : (fun j : Fin 64 => val_main_v153 (F := Ideal) x0 x1 x2 x3 x4 x5 (ix2 p j))
      = fun j : Fin 64 => Cert.Layer.pre (val_main_v96 (F := Ideal) x0 x1 x2 x3) (val_main_v112 (F := Ideal) x0 x1 x2 x3) (val_main_v129 (F := Ideal) x0 x1 x2 x3) (val_main_v146 (F := Ideal) x0 x1 x2 x3) x4 (fun k => x5 (ix1 k)) p j :=
    funext fun j => pre_v153 x0 x1 x2 x3 x4 x5 p j
  have hread : val_main_v154 (F := Ideal) x0 x1 x2 x3 x4 x5 (ix2 p q)
      = Cert.Layer.logSoftmaxRow (fun j : Fin 64 => val_main_v153 (F := Ideal) x0 x1 x2 x3 x4 x5 (ix2 p j)) q := by
    unfold Cert.Layer.logSoftmaxRow
    refine (val_main_v154_apply x0 x1 x2 x3 x4 x5 (ix2 p q)).trans ?_
    rw [Ideal.subf_def, val_main_call4_v5_apply, Ideal.subf_def, rowMax_call4_v4, logSum_call4_v10]
  exact hread.trans (congrArg (fun a => Cert.Layer.logSoftmaxRow a q) hrow)

end Cert.ReferenceIdeal.Layers

end
-- ==== Proof.KernelValue.lean ====
/-
  The idealized unit program's result is the reference's, as a function of the arguments.

  The second tiled unit's output array is the second layer's value of the arrays it finds (the blocks cover the
  array); those arrays are the first unit's output propagated zero to three times, the second weight stack and the
  second bias; the first unit's output is the first layer's value of the features propagated zero to three times,
  the first weights and bias. The reference computes the same two layers of the same propagated arrays, so the two
  results are one function of the six arguments: the reference's last stage function.
-/
import proofs.«112029_j12232066859621_2_alg».proof.Proof.KernelRun
import proofs.«112029_j12232066859621_2_alg».proof.Proof.KernelBlocks
import proofs.«112029_j12232066859621_2_alg».proof.Proof.KernelHost
import proofs.«112029_j12232066859621_2_alg».proof.Proof.RefLayers
import Idealize.ShloMosaic.Lib.ValueLayout

set_option maxRecDepth 16384

noncomputable section

namespace Cert.KernelIdeal.Result

open Cert.KernelIdeal Cert.KernelIdeal.Gen Cert.KernelIdeal.HostValue Idealize.ShloMosaic Idealize.ShloMosaic.TcCoe Idealize.SL.Sem
open Idealize.ShloMosaic.ValueIdx

variable (m : (ℓ : Loc nD τ sig) → Buf (Elt Ideal) ℓ) (ρ : Dev nD → PrngReg)

/-- The first unit's output array: the reference's first layer of the arguments. -/
theorem layer1_eq (c : Dev nD) :
    W4 m ρ c (Proc.devRef .tc main_v68)
      = Cert.ReferenceIdeal.Read.val_main_v96 (F := Ideal) (m ((c : Thread nD τ).loc main_arg0)) (m ((c : Thread nD τ).loc main_arg1))
          (m ((c : Thread nD τ).loc main_arg2)) (m ((c : Thread nD τ).loc main_arg3)) := by
  refine (W4_arr m ρ c 6).trans ((Cert.KernelIdeal.Blocks.final0 (V3 m ρ) c).trans ?_)
  unfold Cert.KernelIdeal.Blocks.G0
  show Cert.Layer.relu (W3 m ρ c (Proc.devRef .tc main_arg0)) (W3 m ρ c (Proc.devRef .tc main_v40))
      (W3 m ρ c (Proc.devRef .tc main_v53)) (W3 m ρ c (Proc.devRef .tc main_v66)) (W3 m ρ c (Proc.devRef .tc main_arg2))
      (fun k => W3 m ρ c (Proc.devRef .tc main_v67) (ix2 (0 : Fin 1) k)) = _
  rw [W3_arg0, W3_v40, W3_v53, W3_v66, W3_arg2, W3_v67, Cert.ReferenceIdeal.Layers.layer1]
  refine congrArg (Cert.Layer.relu _ _ _ _ _) (funext fun k => ?_)
  exact shapeCast_a_1a_apply _ _ 0 k

/-- The result array: the reference's last stage function of the arguments. -/
theorem result_eq (c : Dev nD) :
    W6 m ρ c (Proc.devRef .tc main_v109)
      = Cert.ReferenceIdeal.Read.val_main_v154 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have h68 := layer1_eq m ρ c
  have h27 := (W4_of_ne m ρ c main_v27 (by decide)).trans (W3_v27 m ρ c)
  have h1 := (W4_of_ne m ρ c main_v1 (by decide)).trans (W3_v1 m ρ c)
  have h3 := (W4_of_ne m ρ c main_v3 (by decide)).trans (W3_v3 m ρ c)
  have h4 := (W4_of_ne m ρ c main_arg4 (by decide)).trans (W3_arg4 m ρ c)
  have h5 := (W4_of_ne m ρ c main_arg5 (by decide)).trans (W3_arg5 m ρ c)
  refine (W6_arr m ρ c 6).trans ((Cert.KernelIdeal.Blocks.final1 (V5 m ρ) c).trans ?_)
  unfold Cert.KernelIdeal.Blocks.G1
  show Cert.Layer.logSoftmax (W5 m ρ c (Proc.devRef .tc main_v68)) (W5 m ρ c (Proc.devRef .tc main_v81))
      (W5 m ρ c (Proc.devRef .tc main_v94)) (W5 m ρ c (Proc.devRef .tc main_v107)) (W5 m ρ c (Proc.devRef .tc main_arg4))
      (fun k => W5 m ρ c (Proc.devRef .tc main_v108) (ix2 (0 : Fin 1) k)) = _
  rw [W5_v68, h68, W5_v81 m ρ c _ _ _ _ h68 h27 h1 h3, W5_v94 m ρ c _ _ _ _ h68 h27 h1 h3,
    W5_v107 m ρ c _ _ _ _ h68 h27 h1 h3, W5_arg4, h4, W5_v108, h5, Cert.ReferenceIdeal.Layers.layer2]
  refine congrArg (Cert.Layer.logSoftmax _ _ _ _ _) (funext fun k => ?_)
  exact shapeCast_a_1a_apply _ _ 0 k

/-- The run with the result read: every weakly fair execution ends with the result array at the reference's last
    stage function of the arguments, and the arguments as launched. -/
theorem run : θ_run defs (onTc (τ := τ) (main (F := Ideal))) ⟨m, fun _ => 0, ρ⟩ (fun r => ∀ c : Dev nD,
      r.2.mem ((c.tc : Thread nD τ).loc main_v109)
        = Cert.ReferenceIdeal.Read.val_main_v154 (F := Ideal) (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩)
    (Cert.KernelIdeal.RunValue.run_value m ρ)

end Cert.KernelIdeal.Result

end
-- ==== Proof.RefRun.lean ====
/-
  The reference program's run, with its result named.

  The reference is a straight line of 210 host operations. Every weakly fair execution runs them in order, so
  each buffer ends at the line's fold over the launch memory. The fold is read in three stretches: the first
  60 operations leave the two index vectors of the edges and the edge weights; the next 69 leave the first
  layer's output; the last 81 leave the result. In each stretch a buffer's contents are the stretch's
  operations applied to what the stretch found, and that term is, by unfolding, the stage function of the same
  name; no stretch writes an argument.
-/
import proofs.«112029_j12232066859621_2_alg».proof.Proof.RefOps
import proofs.«112029_j12232066859621_2_alg».proof.Proof.RefRead
import Idealize.ShloMosaic.Lib.StableHlo.Run

set_option maxRecDepth 16384

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running one line and then another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- So a line may be cut anywhere. -/
theorem after_split (n : Nat) (l : List (HloOp τ sig (Elt F))) (V : Valuation τ sig (Elt F)) :
    after l V = after (l.drop n) (after (l.take n) V) := by
  rw [← after_append, List.take_append_drop]

/-- The three stretches. -/
abbrev opsA : List (HloOp τ sig (Elt F)) := (ops (F := F)).take 60
abbrev opsB : List (HloOp τ sig (Elt F)) := ((ops (F := F)).drop 60).take 69
abbrev opsC : List (HloOp τ sig (Elt F)) := ((ops (F := F)).drop 60).drop 69

/-- The last stretch, cut once more: the 66 operations up to the second layer's pre-activation, then the 15 of the
    row-wise log-softmax. -/
abbrev opsC1 : List (HloOp τ sig (Elt F)) := (((ops (F := F)).drop 60).drop 69).take 66
abbrev opsC2 : List (HloOp τ sig (Elt F)) := (((ops (F := F)).drop 60).drop 69).drop 66

theorem after_ops (V : Valuation τ sig (Elt F)) : after ops V = after opsC (after opsB (after opsA V)) := by
  rw [after_split 60 ops V, after_split 69 ((ops (F := F)).drop 60) _]

/-- A stretch written out, then folded: each operation's result at its own buffer is its function of its operands'
    contents, at any other buffer what was there. -/
macro "fold_stretch" : tactic =>
  `(tactic| (simp only [opsA, opsB, opsC, opsC1, opsC2, ops, List.take_succ_cons, List.take_zero, List.drop_succ_cons, List.drop_zero]
             after_results_simp))

set_option maxHeartbeats 8000000 in
/-- The first stretch: the index vectors and the edge weights, of the edge list; the arguments untouched. -/
theorem stageA (V : Valuation τ sig (Elt F)) :
    after opsA V (Proc.devRef .tc main_v1) = val_main_v1 (F := F) (V (Proc.devRef .tc main_arg1))
    ∧ after opsA V (Proc.devRef .tc main_v3) = val_main_v3 (F := F) (V (Proc.devRef .tc main_arg1))
    ∧ after opsA V (Proc.devRef .tc main_v38) = val_main_v38 (F := F) (V (Proc.devRef .tc main_arg1))
    ∧ after opsA V (Proc.devRef .tc main_arg0) = V (Proc.devRef .tc main_arg0)
    ∧ after opsA V (Proc.devRef .tc main_arg2) = V (Proc.devRef .tc main_arg2)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5) := by
  refine ⟨?_, ?_, ?_, ?_, ?_, ?_, ?_, ?_⟩ <;> fold_stretch <;> rfl

set_option maxHeartbeats 8000000 in
/-- The second stretch: the first layer's output, from the features, the first weights and bias, the index vectors and
    the edge weights; what the third stretch still reads is untouched. -/
theorem stageB (V : Valuation τ sig (Elt F)) (x0 : (⟨S50000x128, .f32⟩ : BufTy).Contents (Elt F))
    (x1 : (⟨S2x800000, .i32⟩ : BufTy).Contents (Elt F)) (x2 : (⟨S4x128x128, .f32⟩ : BufTy).Contents (Elt F))
    (x3 : (⟨S128, .f32⟩ : BufTy).Contents (Elt F))
    (h0 : V (Proc.devRef .tc main_arg0) = x0) (h2 : V (Proc.devRef .tc main_arg2) = x2) (h3 : V (Proc.devRef .tc main_arg3) = x3)
    (hv1 : V (Proc.devRef .tc main_v1) = val_main_v1 (F := F) x1) (hv3 : V (Proc.devRef .tc main_v3) = val_main_v3 (F := F) x1)
    (hv38 : V (Proc.devRef .tc main_v38) = val_main_v38 (F := F) x1) :
    after opsB V (Proc.devRef .tc main_v96) = val_main_v96 (F := F) x0 x1 x2 x3
    ∧ after opsB V (Proc.devRef .tc main_v1) = V (Proc.devRef .tc main_v1)
    ∧ after opsB V (Proc.devRef .tc main_v3) = V (Proc.devRef .tc main_v3)
    ∧ after opsB V (Proc.devRef .tc main_v38) = V (Proc.devRef .tc main_v38)
    ∧ after opsB V (Proc.devRef .tc main_arg4) = V (Proc.devRef .tc main_arg4)
    ∧ after opsB V (Proc.devRef .tc main_arg5) = V (Proc.devRef .tc main_arg5) := by
  refine ⟨?_, ?_, ?_, ?_, ?_, ?_⟩
  · fold_stretch
    rw [h0, h2, h3, hv1, hv3, hv38]
    rfl
  all_goals fold_stretch

theorem after_opsC (V : Valuation τ sig (Elt F)) : after opsC V = after opsC2 (after opsC1 V) :=
  after_split 66 _ V

/-- Contents carried to a buffer's own type and back are the contents. -/
theorem ofBuf_toBuf {T : BufTy} (x : TRef sig T) (v : T.Contents (Elt F)) : x.ofBuf (x.toBuf v) = v := by
  obtain ⟨r, h, _, _⟩ := x
  subst h
  rfl

/-- At the two buffers the log-softmax is entered and left through, the carrying is the identity. -/
theorem toBuf_v153 (y : (⟨S50000x64, .f32⟩ : BufTy).Contents (Elt F)) :
    y = (TRef.of (T := ⟨S50000x64, .f32⟩) main_v153).toBuf y := rfl
theorem toBuf_v154 (y : (⟨S50000x64, .f32⟩ : BufTy).Contents (Elt F)) :
    y = (TRef.of (T := ⟨S50000x64, .f32⟩) main_v154).toBuf y := rfl

set_option maxHeartbeats 8000000 in
/-- The third stretch up to the second layer's pre-activation, from the first layer's output, the second weights and
    bias, the index vectors and the edge weights. -/
theorem stageC1 (V : Valuation τ sig (Elt F)) (x0 : (⟨S50000x128, .f32⟩ : BufTy).Contents (Elt F))
    (x1 : (⟨S2x800000, .i32⟩ : BufTy).Contents (Elt F)) (x2 : (⟨S4x128x128, .f32⟩ : BufTy).Contents (Elt F))
    (x3 : (⟨S128, .f32⟩ : BufTy).Contents (Elt F)) (x4 : (⟨S4x128x64, .f32⟩ : BufTy).Contents (Elt F))
    (x5 : (⟨S64, .f32⟩ : BufTy).Contents (Elt F))
    (h96 : V (Proc.devRef .tc main_v96) = val_main_v96 (F := F) x0 x1 x2 x3)
    (hv1 : V (Proc.devRef .tc main_v1) = val_main_v1 (F := F) x1) (hv3 : V (Proc.devRef .tc main_v3) = val_main_v3 (F := F) x1)
    (hv38 : V (Proc.devRef .tc main_v38) = val_main_v38 (F := F) x1)
    (h4 : V (Proc.devRef .tc main_arg4) = x4) (h5 : V (Proc.devRef .tc main_arg5) = x5) :
    after opsC1 V (Proc.devRef .tc main_v153) = val_main_v153 (F := F) x0 x1 x2 x3 x4 x5 := by
  fold_stretch
  rw [h96, hv1, hv3, hv38, h4, h5]
  rfl

set_option maxHeartbeats 8000000 in
/-- The log-softmax: the result from the pre-activation. Its operations sit in a called function, whose values are
    carried to their buffers' types and back at every step; a round trip is the identity (`ofBuf_toBuf`), and what is
    left is the stage functions' own composition: row maximum, shift, exponentials' sum, logarithm, shift. -/
theorem stageC2 (V : Valuation τ sig (Elt F)) (x0 : (⟨S50000x128, .f32⟩ : BufTy).Contents (Elt F))
    (x1 : (⟨S2x800000, .i32⟩ : BufTy).Contents (Elt F)) (x2 : (⟨S4x128x128, .f32⟩ : BufTy).Contents (Elt F))
    (x3 : (⟨S128, .f32⟩ : BufTy).Contents (Elt F)) (x4 : (⟨S4x128x64, .f32⟩ : BufTy).Contents (Elt F))
    (x5 : (⟨S64, .f32⟩ : BufTy).Contents (Elt F))
    (h153 : V (Proc.devRef .tc main_v153) = (TRef.of (T := ⟨S50000x64, .f32⟩) main_v153).toBuf (val_main_v153 (F := F) x0 x1 x2 x3 x4 x5)) :
    after opsC2 V (Proc.devRef .tc main_v154)
      = (TRef.of (T := ⟨S50000x64, .f32⟩) main_v154).toBuf (val_main_v154 (F := F) x0 x1 x2 x3 x4 x5) := by
  fold_stretch
  rw [h153]
  simp only [ofBuf_toBuf]
  refine congrArg _ ?_
  rfl

/-- The third stretch: the result, from the first layer's output, the second weights and bias, the index vectors and
    the edge weights. -/
theorem stageC (V : Valuation τ sig (Elt F)) (x0 : (⟨S50000x128, .f32⟩ : BufTy).Contents (Elt F))
    (x1 : (⟨S2x800000, .i32⟩ : BufTy).Contents (Elt F)) (x2 : (⟨S4x128x128, .f32⟩ : BufTy).Contents (Elt F))
    (x3 : (⟨S128, .f32⟩ : BufTy).Contents (Elt F)) (x4 : (⟨S4x128x64, .f32⟩ : BufTy).Contents (Elt F))
    (x5 : (⟨S64, .f32⟩ : BufTy).Contents (Elt F))
    (h96 : V (Proc.devRef .tc main_v96) = val_main_v96 (F := F) x0 x1 x2 x3)
    (hv1 : V (Proc.devRef .tc main_v1) = val_main_v1 (F := F) x1) (hv3 : V (Proc.devRef .tc main_v3) = val_main_v3 (F := F) x1)
    (hv38 : V (Proc.devRef .tc main_v38) = val_main_v38 (F := F) x1)
    (h4 : V (Proc.devRef .tc main_arg4) = x4) (h5 : V (Proc.devRef .tc main_arg5) = x5) :
    after opsC V (Proc.devRef .tc main_v154) = val_main_v154 (F := F) x0 x1 x2 x3 x4 x5 := by
  rw [after_opsC]
  exact (stageC2 (after opsC1 V) x0 x1 x2 x3 x4 x5
    ((stageC1 V x0 x1 x2 x3 x4 x5 h96 hv1 hv3 hv38 h4 h5).trans (toBuf_v153 _))).trans (toBuf_v154 _).symm

/-- The whole line: the result buffer ends at the last stage function of the arguments' contents. -/
theorem result_eq (V : Valuation τ sig (Elt F)) :
    after ops V (Proc.devRef .tc main_v154)
      = val_main_v154 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  rw [after_ops]
  obtain ⟨a1, a3, a38, k0, k2, k3, k4, k5⟩ := stageA V
  obtain ⟨b96, b1, b3, b38, b4, b5⟩ := stageB (after opsA V) _ (V (Proc.devRef .tc main_arg1)) _ _ k0 k2 k3 a1 a3 a38
  exact stageC (after opsB (after opsA V)) _ _ _ _ _ _ b96 (b1.trans a1) (b3.trans a3) (b38.trans a38) (b4.trans k4) (b5.trans k5)

set_option maxRecDepth 8192 in
set_option maxHeartbeats 8000000 in
/-- On every device, from any memory with zero counters: every weakly fair execution of the reference terminates
    with the result at the last stage function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v154)
        = val_main_v154 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v154).trans ((result_eq _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunValue

end
-- ==== Proof.lean ====
/-
  The certificate: the tiled-unit program of a two-layer graph network (three propagation hops per layer on the
  host; per layer one tiled unit that multiplies the four propagated feature arrays by a weight stack, adds the
  bias and applies the layer's nonlinearity, ten blocks of 5000 rows each) against its plain reference.

  * The three frames: both unit programs by the generated frame proof; the reference by its run with the result
    dropped.
  * The idealization changed no operation, so there is nothing to preserve.
  * On the extended reals the two idealized programs end with equal results: each tiled unit's output array is its
    layer's value — `max (∑ … + b) 0` for the first, `(a − m) − log ∑ exp (a − m)` for the second — of the arrays it
    finds, because a layer works row by row and the ten blocks cover the array; the host operations around the
    units are the reference's own; and the reference's two layers are the same two functions. The only algebra is
    `0 + x = x` (the unit's accumulator starts from zero) and `max (−∞) m = m` (the reference's maximum has an
    explicit initial value); finiteness of the inputs is not used.
-/
import proofs.«112029_j12232066859621_2_alg».proof.Defs
import proofs.«112029_j12232066859621_2_alg».proof.Proof.Gen.Kernel
import proofs.«112029_j12232066859621_2_alg».proof.Proof.Gen.Kernel.Skeleton
import proofs.«112029_j12232066859621_2_alg».proof.Proof.Gen.Kernel.Launch
import proofs.«112029_j12232066859621_2_alg».proof.Proof.Gen.Kernel.Points
import proofs.«112029_j12232066859621_2_alg».proof.Proof.Gen.Kernel.Frame
import proofs.«112029_j12232066859621_2_alg».proof.Proof.Gen.KernelIdeal
import proofs.«112029_j12232066859621_2_alg».proof.Proof.Gen.KernelIdeal.Skeleton
import proofs.«112029_j12232066859621_2_alg».proof.Proof.Gen.KernelIdeal.Launch
import proofs.«112029_j12232066859621_2_alg».proof.Proof.Gen.KernelIdeal.Points
import proofs.«112029_j12232066859621_2_alg».proof.Proof.Gen.KernelIdeal.Frame
import proofs.«112029_j12232066859621_2_alg».proof.Proof.Gen.ReferenceIdeal
import proofs.«112029_j12232066859621_2_alg».proof.Proof.Gen.Pre_finite_inputs
import proofs.«112029_j12232066859621_2_alg».proof.Proof.KernelValue
import proofs.«112029_j12232066859621_2_alg».proof.Proof.RefRun
import Idealize.ShloMosaic.Adequacy
import Idealize.ShloMosaic.Init

noncomputable section

namespace Cert.Proof

open Idealize.ShloMosaic Idealize.SL.Sem Cert.Kernel

/-- The word-level unit program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the idealized one. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunValue.run (F := Ideal) m ρ)

/-- From memories that agree on the arguments both idealized programs end at the reference's last stage function of
    those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RunValue.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
